-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x300 : Shape := ⟨2, ![128, 300]⟩
abbrev S300 : Shape := ⟨1, ![300]⟩
abbrev S300x300 : Shape := ⟨2, ![300, 300]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x300 : S_.BroadcastsInDim S128x300 (![] : Fin 0 → Fin S128x300.rank)
  reducesTo_S128x300_S_d0_1 : S128x300.ReducesTo [0, 1] S_
  bcast_S_S300 : S_.BroadcastsInDim S300 (![] : Fin 0 → Fin S300.rank)
  reducesTo_S300_S_d0 : S300.ReducesTo [0] S_
  bcast_S_S300x300 : S_.BroadcastsInDim S300x300 (![] : Fin 0 → Fin S300x300.rank)
  reducesTo_S300x300_S_d0_1 : S300x300.ReducesTo [0, 1] S_

variable [Facts]

def fn_part1 {F : FTy → Type} [FloatOps F] (main_arg5 : FVec F S300 .f32) (main_v13 : IVec S_ 1) (main_v16 : IVec S300x300 1) : IVec S_ 1 :=
  let main_c_5 : IVec S_ 1 := constantI S_ 1 1#1
  let main_v17 : IVec S_ 1 := (fun x v => Host.reduce IntOp.andi x v reducesTo_S300x300_S_d0_1 h_S_) main_v16 main_c_5
  let main_v18 : IVec S_ 1 := andi main_v13 main_v17
  let main_v19 : FVec F S300 .f32 := Host.absf main_arg5
  let main_cst_6 : FVec F S_ .f32 := constant S_ .f32 0x7F800000#32
  let main_v20 : FVec F S300 .f32 := broadcastInDim S300 ![] bcast_S_S300 main_cst_6
  let main_v21 : IVec S300 1 := cmpf .olt main_v19 main_v20
  let main_c_7 : IVec S_ 1 := constantI S_ 1 1#1
  let main_v22 : IVec S_ 1 := (fun x v => Host.reduce IntOp.andi x v reducesTo_S300_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x300 .f32) (main_arg3 : FVec F S300 .f32) (main_arg4 : FVec F S300x300 .f32) (main_arg5 : FVec F S300 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x300 .f32 := Host.absf main_arg2
  let main_cst_0 : FVec F S_ .f32 := constant S_ .f32 0x7F800000#32
  let main_v5 : FVec F S128x300 .f32 := broadcastInDim S128x300 ![] bcast_S_S128x300 main_cst_0
  let main_v6 : IVec S128x300 1 := cmpf .olt main_v4 main_v5
  let main_c_1 : IVec S_ 1 := constantI S_ 1 1#1
  let main_v7 : IVec S_ 1 := (fun x v => Host.reduce IntOp.andi x v reducesTo_S128x300_S_d0_1 h_S_) main_v6 main_c_1
  let main_v8 : IVec S_ 1 := andi main_v3 main_v7
  let main_v9 : FVec F S300 .f32 := Host.absf main_arg3
  let main_cst_2 : FVec F S_ .f32 := constant S_ .f32 0x7F800000#32
  let main_v10 : FVec F S300 .f32 := broadcastInDim S300 ![] bcast_S_S300 main_cst_2
  let main_v11 : IVec S300 1 := cmpf .olt main_v9 main_v10
  let main_c_3 : IVec S_ 1 := constantI S_ 1 1#1
  let main_v12 : IVec S_ 1 := (fun x v => Host.reduce IntOp.andi x v reducesTo_S300_S_d0 h_S_) main_v11 main_c_3
  let main_v13 : IVec S_ 1 := andi main_v8 main_v12
  let main_v14 : FVec F S300x300 .f32 := Host.absf main_arg4
  let main_cst_4 : FVec F S_ .f32 := constant S_ .f32 0x7F800000#32
  let main_v15 : FVec F S300x300 .f32 := broadcastInDim S300x300 ![] bcast_S_S300x300 main_cst_4
  let main_v16 : IVec S300x300 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x300 : Shape := ⟨2, ![128, 300]⟩
abbrev S300 : Shape := ⟨1, ![300]⟩
abbrev S300x300 : Shape := ⟨2, ![300, 300]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x300 : Shape := ⟨2, ![50000, 300]⟩
abbrev S2000x128 : Shape := ⟨2, ![2000, 128]⟩
abbrev S2000x1 : Shape := ⟨2, ![2000, 1]⟩
abbrev S2000x300 : Shape := ⟨2, ![2000, 300]⟩
abbrev S800000x300 : Shape := ⟨2, ![800000, 300]⟩
abbrev S1x300 : Shape := ⟨2, ![1, 300]⟩

abbrev nBuf : Space → Nat
  | .hbm => 52
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x300, .f32⟩
  | .hbm, ⟨3, _⟩ => ⟨S300, .f32⟩
  | .hbm, ⟨4, _⟩ => ⟨S300x300, .f32⟩
  | .hbm, ⟨5, _⟩ => ⟨S300, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S50000, .f32⟩
  | .hbm, ⟨20, _⟩ => ⟨S50000x1, .f32⟩
  | .hbm, ⟨21, _⟩ => ⟨S50000x300, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x300, .f32⟩
  | .hbm, ⟨31, _⟩ => ⟨S_, .f32⟩
  | .hbm, ⟨32, _⟩ => ⟨S50000x300, .f32⟩
  | .hbm, ⟨33, _⟩ => ⟨S800000x1, .i32⟩
  | .hbm, ⟨34, _⟩ => ⟨S50000x300, .f32⟩
  | .hbm, ⟨35, _⟩ => ⟨S1x300, .f32⟩
  | .hbm, ⟨36, _⟩ => ⟨S50000x300, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x300, .f32⟩
  | .hbm, ⟨46, _⟩ => ⟨S_, .f32⟩
  | .hbm, ⟨47, _⟩ => ⟨S50000x300, .f32⟩
  | .hbm, ⟨48, _⟩ => ⟨S800000x1, .i32⟩
  | .hbm, ⟨49, _⟩ => ⟨S50000x300, .f32⟩
  | .hbm, ⟨50, _⟩ => ⟨S1x300, .f32⟩
  | .hbm, ⟨51, _⟩ => ⟨S50000x300, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S128x300, .f32⟩
  | .local _ .vmem, ⟨5, _⟩ => ⟨S2000x300, .f32⟩
  | .local _ .vmem, ⟨6, _⟩ => ⟨S2000x300, .f32⟩
  | .local _ .vmem, ⟨7, _⟩ => ⟨S2000x300, .f32⟩
  | .local _ .vmem, ⟨8, _⟩ => ⟨S2000x300, .f32⟩
  | .local _ .vmem, ⟨9, _⟩ => ⟨S2000x300, .f32⟩
  | .local _ .vmem, ⟨10, _⟩ => ⟨S2000x300, .f32⟩
  | .local _ .vmem, ⟨11, _⟩ => ⟨S2000x1, .f32⟩
  | .local _ .vmem, ⟨12, _⟩ => ⟨S2000x1, .f32⟩
  | .local _ .vmem, ⟨13, _⟩ => ⟨S1x300, .f32⟩
  | .local _ .vmem, ⟨14, _⟩ => ⟨S300x300, .f32⟩
  | .local _ .vmem, ⟨15, _⟩ => ⟨S2000x300, .f32⟩
  | .local _ .vmem, ⟨16, _⟩ => ⟨S2000x300, .f32⟩
  | .local _ .vmem, ⟨17, _⟩ => ⟨S2000x300, .f32⟩
  | .local _ .vmem, ⟨18, _⟩ => ⟨S2000x300, .f32⟩
  | .local _ .vmem, ⟨19, _⟩ => ⟨S2000x300, .f32⟩
  | .local _ .vmem, ⟨20, _⟩ => ⟨S2000x300, .f32⟩
  | .local _ .vmem, ⟨21, _⟩ => ⟨S2000x1, .f32⟩
  | .local _ .vmem, ⟨22, _⟩ => ⟨S2000x1, .f32⟩
  | .local _ .vmem, ⟨23, _⟩ => ⟨S1x300, .f32⟩
  | .local _ .vmem, ⟨24, _⟩ => ⟨S2000x300, .f32⟩
  | .local _ .vmem, ⟨25, _⟩ => ⟨S2000x300, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem4_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x300 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x300 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x300 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x300 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x300 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S300x300 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x300 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x300 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x300 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x300 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x300 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S2000x128_S2000x128_0_0 : ∀ a, (![0, 0] : Fin 2 → Nat) a + S2000x128.size a ≤ S2000x128.size a
  h_S2000x128 : 0 < S2000x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bitsLt_bf16_f32 : FTy.bits .bf16 < FTy.bits .f32
  inb_S128x300_S128x300_0_0 : ∀ a, (![0, 0] : Fin 2 → Nat) a + S128x300.size a ≤ S128x300.size a
  h_S128x300 : 0 < S128x300.numel
  inb_S2000x300_S2000x300_0_0 : ∀ a, (![0, 0] : Fin 2 → Nat) a + S2000x300.size a ≤ S2000x300.size a
  h_S2000x300 : 0 < S2000x300.numel
  bcast_S_S50000x300 : S_.BroadcastsInDim S50000x300 (![] : Fin 0 → Fin S50000x300.rank)
  shapeCasts_S300_S1x300 : S300.ShapeCasts S1x300
  shapeCasts_S2000x300_S2000x300 : S2000x300.ShapeCasts S2000x300
  inb_S1x300_S1x300_0_0 : ∀ a, (![0, 0] : Fin 2 → Nat) a + S1x300.size a ≤ S1x300.size a
  h_S1x300 : 0 < S1x300.numel
  shapeCasts_S1x300_S1x300 : S1x300.ShapeCasts S1x300
  broadcasts_S2000x1_S2000x300 : S2000x1.Broadcasts S2000x300
  broadcasts_S1x300_S2000x300 : S1x300.Broadcasts S2000x300
  inb_S300x300_S300x300_0_0 : ∀ a, (![0, 0] : Fin 2 → Nat) a + S300x300.size a ≤ S300x300.size a
  h_S300x300 : 0 < S300x300.numel
  scatter_S50000_S800000x1_S800000_n_0_0_1_wf : ScatterDims.WF S50000 S800000x1 S800000 [] [0] [0] 1
  dot_S2000x128_S128x300_S2000x300_1_0_0_1_n_n_wf : DotDims.WF S2000x128 S128x300 S2000x300 [1] [0] [0] [1] [] []
  gather_S50000x300_S800000x1_S800000x300_1_0_n_n_0_1_1300_wf : GatherDims.WF S50000x300 S800000x1 S800000x300 [1] [0] [] [0] [] 1 ![1, 300]
  scatter_S50000x300_S800000x1_S800000x300_1_0_0_1_wf : ScatterDims.WF S50000x300 S800000x1 S800000x300 [1] [0] [0] 1
  dot_S2000x300_S300x300_S2000x300_1_0_0_1_n_n_wf : DotDims.WF S2000x300 S300x300 S2000x300 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x300.size a ≤ S128x300.size a
  hwx0_2 : ∀ i : grid0.Coords, EltTy.bits .f32 = 32 ∨ (Rect.block (s := S128x300) S128x300.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x300.size a ≤ S50000x300.size a
  hwx0_3 : ∀ i : grid0.Coords, EltTy.bits .f32 = 32 ∨ (Rect.block (s := S50000x300) S2000x300.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x300.size a ≤ S50000x300.size a
  hwx1_0 : ∀ i : grid1.Coords, EltTy.bits .f32 = 32 ∨ (Rect.block (s := S50000x300) S2000x300.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x300.size a ≤ S50000x300.size a
  hwx1_1 : ∀ i : grid1.Coords, EltTy.bits .f32 = 32 ∨ (Rect.block (s := S50000x300) S2000x300.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x300.size a ≤ S1x300.size a
  hwx1_3 : ∀ i : grid1.Coords, EltTy.bits .f32 = 32 ∨ (Rect.block (s := S1x300) S1x300.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S300x300.size a ≤ S300x300.size a
  hwx1_4 : ∀ i : grid1.Coords, EltTy.bits .f32 = 32 ∨ (Rect.block (s := S300x300) S300x300.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x300.size a ≤ S50000x300.size a
  hwx1_5 : ∀ i : grid1.Coords, EltTy.bits .f32 = 32 ∨ (Rect.block (s := S50000x300) S2000x300.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x300.size a ≤ S50000x300.size a
  hwx2_0 : ∀ i : grid2.Coords, EltTy.bits .f32 = 32 ∨ (Rect.block (s := S50000x300) S2000x300.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x300.size a ≤ S50000x300.size a
  hwx2_1 : ∀ i : grid2.Coords, EltTy.bits .f32 = 32 ∨ (Rect.block (s := S50000x300) S2000x300.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x300.size a ≤ S1x300.size a
  hwx2_3 : ∀ i : grid2.Coords, EltTy.bits .f32 = 32 ∨ (Rect.block (s := S1x300) S1x300.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x300.size a ≤ S50000x300.size a
  hwx2_4 : ∀ i : grid2.Coords, EltTy.bits .f32 = 32 ∨ (Rect.block (s := S50000x300) S2000x300.size (cc2_transform_4 i) (hinb2_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x300_S2000x300_1_0_0_1_n_n : DotDims S2000x128 S128x300 S2000x300 where
  lhsContracting := [1]
  rhsContracting := [0]
  lhsNonContracting := [0]
  rhsNonContracting := [1]
  lhsBatch := []
  rhsBatch := []
  wf := dot_S2000x128_S128x300_S2000x300_1_0_0_1_n_n_wf
def gather_S50000x300_S800000x1_S800000x300_1_0_n_n_0_1_1300 : GatherDims S50000x300 S800000x1 S800000x300 where
  offsetDims := [1]
  collapsedSliceDims := [0]
  operandBatchingDims := []
  startIndicesBatchingDims := []
  startIndexMap := [0]
  indexVectorDim := 1
  sliceSizes := ![1, 300]
  wf := gather_S50000x300_S800000x1_S800000x300_1_0_n_n_0_1_1300_wf
def scatter_S50000x300_S800000x1_S800000x300_1_0_0_1 : ScatterDims S50000x300 S800000x1 S800000x300 where
  updateWindowDims := [1]
  insertedWindowDims := [0]
  scatterDimsToOperandDims := [0]
  indexVectorDim := 1
  wf := scatter_S50000x300_S800000x1_S800000x300_1_0_0_1_wf
def dot_S2000x300_S300x300_S2000x300_1_0_0_1_n_n : DotDims S2000x300 S300x300 S2000x300 where
  lhsContracting := [1]
  rhsContracting := [0]
  lhsNonContracting := [0]
  rhsNonContracting := [1]
  lhsBatch := []
  rhsBatch := []
  wf := dot_S2000x300_S300x300_S2000x300_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x300.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S2000x300.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v12) S2000x300.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S2000x300.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x300.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S300x300.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S2000x300.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v24) S2000x300.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S2000x300.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v35) S1x300.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v36) S2000x300.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x300 : Shape := ⟨2, ![128, 300]⟩
abbrev S300 : Shape := ⟨1, ![300]⟩
abbrev S300x300 : Shape := ⟨2, ![300, 300]⟩
abbrev S1x800000 : Shape := ⟨2, ![1, 800000]⟩
abbrev S800000 : Shape := ⟨1, ![800000]⟩
abbrev S50000x300 : Shape := ⟨2, ![50000, 300]⟩
abbrev S_ : Shape := ⟨0, ![]⟩
abbrev S50000 : Shape := ⟨1, ![50000]⟩
abbrev S800000x1 : Shape := ⟨2, ![800000, 1]⟩
abbrev S800000x300 : Shape := ⟨2, ![800000, 300]⟩
abbrev S50000x1 : Shape := ⟨2, ![50000, 1]⟩
abbrev S1x300 : Shape := ⟨2, ![1, 300]⟩

abbrev nBuf : Space → Nat
  | .hbm => 118
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x300, .f32⟩
  | .hbm, ⟨3, _⟩ => ⟨S300, .f32⟩
  | .hbm, ⟨4, _⟩ => ⟨S300x300, .f32⟩
  | .hbm, ⟨5, _⟩ => ⟨S300, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000x300, .f32⟩
  | .hbm, ⟨11, _⟩ => ⟨S_, .f32⟩
  | .hbm, ⟨12, _⟩ => ⟨S800000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000, .f32⟩
  | .hbm, ⟨39, _⟩ => ⟨S800000, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x300, .f32⟩
  | .hbm, ⟨49, _⟩ => ⟨S800000x1, .f32⟩
  | .hbm, ⟨50, _⟩ => ⟨S800000x300, .f32⟩
  | .hbm, ⟨51, _⟩ => ⟨S800000x300, .f32⟩
  | .hbm, ⟨52, _⟩ => ⟨S_, .f32⟩
  | .hbm, ⟨53, _⟩ => ⟨S50000x300, .f32⟩
  | .hbm, ⟨54, _⟩ => ⟨S800000x1, .i32⟩
  | .hbm, ⟨55, _⟩ => ⟨S50000x300, .f32⟩
  | .hbm, ⟨56, _⟩ => ⟨S50000, .f32⟩
  | .hbm, ⟨57, _⟩ => ⟨S50000x1, .f32⟩
  | .hbm, ⟨58, _⟩ => ⟨S50000x300, .f32⟩
  | .hbm, ⟨59, _⟩ => ⟨S50000x300, .f32⟩
  | .hbm, ⟨60, _⟩ => ⟨S50000x300, .f32⟩
  | .hbm, ⟨61, _⟩ => ⟨S1x300, .f32⟩
  | .hbm, ⟨62, _⟩ => ⟨S50000x300, .f32⟩
  | .hbm, ⟨63, _⟩ => ⟨S50000x300, .f32⟩
  | .hbm, ⟨64, _⟩ => ⟨S50000x300, .f32⟩
  | .hbm, ⟨65, _⟩ => ⟨S_, .f32⟩
  | .hbm, ⟨66, _⟩ => ⟨S800000, .f32⟩
  | .hbm, ⟨67, _⟩ => ⟨S_, .f32⟩
  | .hbm, ⟨68, _⟩ => ⟨S50000, .f32⟩
  | .hbm, ⟨69, _⟩ => ⟨S800000x1, .i32⟩
  | .hbm, ⟨70, _⟩ => ⟨S50000, .f32⟩
  | .hbm, ⟨71, _⟩ => ⟨S_, .f32⟩
  | .hbm, ⟨72, _⟩ => ⟨S50000, .f32⟩
  | .hbm, ⟨73, _⟩ => ⟨S50000, .f32⟩
  | .hbm, ⟨74, _⟩ => ⟨S50000, .f32⟩
  | .hbm, ⟨75, _⟩ => ⟨S_, .i32⟩
  | .hbm, ⟨76, _⟩ => ⟨S800000, .i32⟩
  | .hbm, ⟨77, _⟩ => ⟨S800000, .i1⟩
  | .hbm, ⟨78, _⟩ => ⟨S_, .i32⟩
  | .hbm, ⟨79, _⟩ => ⟨S800000, .i32⟩
  | .hbm, ⟨80, _⟩ => ⟨S800000, .i32⟩
  | .hbm, ⟨81, _⟩ => ⟨S800000, .i32⟩
  | .hbm, ⟨82, _⟩ => ⟨S800000x1, .i32⟩
  | .hbm, ⟨83, _⟩ => ⟨S800000, .f32⟩
  | .hbm, ⟨84, _⟩ => ⟨S_, .i32⟩
  | .hbm, ⟨85, _⟩ => ⟨S800000, .i32⟩
  | .hbm, ⟨86, _⟩ => ⟨S800000, .i1⟩
  | .hbm, ⟨87, _⟩ => ⟨S_, .i32⟩
  | .hbm, ⟨88, _⟩ => ⟨S800000, .i32⟩
  | .hbm, ⟨89, _⟩ => ⟨S800000, .i32⟩
  | .hbm, ⟨90, _⟩ => ⟨S800000, .i32⟩
  | .hbm, ⟨91, _⟩ => ⟨S800000x1, .i32⟩
  | .hbm, ⟨92, _⟩ => ⟨S800000, .f32⟩
  | .hbm, ⟨93, _⟩ => ⟨S800000, .f32⟩
  | .hbm, ⟨94, _⟩ => ⟨S_, .i32⟩
  | .hbm, ⟨95, _⟩ => ⟨S800000, .i32⟩
  | .hbm, ⟨96, _⟩ => ⟨S800000, .i1⟩
  | .hbm, ⟨97, _⟩ => ⟨S_, .i32⟩
  | .hbm, ⟨98, _⟩ => ⟨S800000, .i32⟩
  | .hbm, ⟨99, _⟩ => ⟨S800000, .i32⟩
  | .hbm, ⟨100, _⟩ => ⟨S800000, .i32⟩
  | .hbm, ⟨101, _⟩ => ⟨S800000x1, .i32⟩
  | .hbm, ⟨102, _⟩ => ⟨S800000x300, .f32⟩
  | .hbm, ⟨103, _⟩ => ⟨S800000x1, .f32⟩
  | .hbm, ⟨104, _⟩ => ⟨S800000x300, .f32⟩
  | .hbm, ⟨105, _⟩ => ⟨S800000x300, .f32⟩
  | .hbm, ⟨106, _⟩ => ⟨S_, .f32⟩
  | .hbm, ⟨107, _⟩ => ⟨S50000x300, .f32⟩
  | .hbm, ⟨108, _⟩ => ⟨S800000x1, .i32⟩
  | .hbm, ⟨109, _⟩ => ⟨S50000x300, .f32⟩
  | .hbm, ⟨110, _⟩ => ⟨S50000, .f32⟩
  | .hbm, ⟨111, _⟩ => ⟨S50000x1, .f32⟩
  | .hbm, ⟨112, _⟩ => ⟨S50000x300, .f32⟩
  | .hbm, ⟨113, _⟩ => ⟨S50000x300, .f32⟩
  | .hbm, ⟨114, _⟩ => ⟨S50000x300, .f32⟩
  | .hbm, ⟨115, _⟩ => ⟨S1x300, .f32⟩
  | .hbm, ⟨116, _⟩ => ⟨S50000x300, .f32⟩
  | .hbm, ⟨117, _⟩ => ⟨S50000x300, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_8 : Ref sig .tc := ⟨.hbm, 65, rfl⟩
abbrev main_v49 : Ref sig .tc := ⟨.hbm, 66, rfl⟩
abbrev main_cst_9 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_10 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_c_11 : Ref sig .tc := ⟨.hbm, 75, rfl⟩
abbrev main_v56 : Ref sig .tc := ⟨.hbm, 76, rfl⟩
abbrev main_v57 : Ref sig .tc := ⟨.hbm, 77, rfl⟩
abbrev main_c_12 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_c_13 : Ref sig .tc := ⟨.hbm, 84, rfl⟩
abbrev main_v63 : Ref sig .tc := ⟨.hbm, 85, rfl⟩
abbrev main_v64 : Ref sig .tc := ⟨.hbm, 86, rfl⟩
abbrev main_c_14 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_c_15 : Ref sig .tc := ⟨.hbm, 94, rfl⟩
abbrev main_v71 : Ref sig .tc := ⟨.hbm, 95, rfl⟩
abbrev main_v72 : Ref sig .tc := ⟨.hbm, 96, rfl⟩
abbrev main_c_16 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_cst_17 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x300_0_1 : S800000x1.BroadcastsInDim S800000x300 (![0, 1] : Fin 2 → Fin S800000x300.rank)
  bcast_S_S50000x300 : S_.BroadcastsInDim S50000x300 (![] : Fin 0 → Fin S50000x300.rank)
  bcast_S50000_S50000x1_0 : S50000.BroadcastsInDim S50000x1 (![0] : Fin 1 → Fin S50000x1.rank)
  bcast_S50000x1_S50000x300_0_1 : S50000x1.BroadcastsInDim S50000x300 (![0, 1] : Fin 2 → Fin S50000x300.rank)
  bcast_S300_S1x300_1 : S300.BroadcastsInDim S1x300 (![1] : Fin 1 → Fin S1x300.rank)
  bcast_S1x300_S50000x300_0_1 : S1x300.BroadcastsInDim S50000x300 (![0, 1] : Fin 2 → Fin S50000x300.rank)
  dot_S50000x128_S128x300_S50000x300_1_0_0_1_n_n_wf : DotDims.WF S50000x128 S128x300 S50000x300 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x300_S800000x1_S800000x300_1_0_n_n_0_1_1300_wf : GatherDims.WF S50000x300 S800000x1 S800000x300 [1] [0] [] [0] [] 1 ![1, 300]
  scatter_S50000x300_S800000x1_S800000x300_1_0_0_1_wf : ScatterDims.WF S50000x300 S800000x1 S800000x300 [1] [0] [0] 1
  dot_S50000x300_S300x300_S50000x300_1_0_0_1_n_n_wf : DotDims.WF S50000x300 S300x300 S50000x300 [1] [0] [0] [1] [] []

variable [Facts₀]

def dot_S50000x128_S128x300_S50000x300_1_0_0_1_n_n : DotDims S50000x128 S128x300 S50000x300 where
  lhsContracting := [1]
  rhsContracting := [0]
  lhsNonContracting := [0]
  rhsNonContracting := [1]
  lhsBatch := []
  rhsBatch := []
  wf := dot_S50000x128_S128x300_S50000x300_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x300_S800000x1_S800000x300_1_0_n_n_0_1_1300 : GatherDims S50000x300 S800000x1 S800000x300 where
  offsetDims := [1]
  collapsedSliceDims := [0]
  operandBatchingDims := []
  startIndicesBatchingDims := []
  startIndexMap := [0]
  indexVectorDim := 1
  sliceSizes := ![1, 300]
  wf := gather_S50000x300_S800000x1_S800000x300_1_0_n_n_0_1_1300_wf
def scatter_S50000x300_S800000x1_S800000x300_1_0_0_1 : ScatterDims S50000x300 S800000x1 S800000x300 where
  updateWindowDims := [1]
  insertedWindowDims := [0]
  scatterDimsToOperandDims := [0]
  indexVectorDim := 1
  wf := scatter_S50000x300_S800000x1_S800000x300_1_0_0_1_wf
def dot_S50000x300_S300x300_S50000x300_1_0_0_1_n_n : DotDims S50000x300 S300x300 S50000x300 where
  lhsContracting := [1]
  rhsContracting := [0]
  lhsNonContracting := [0]
  rhsNonContracting := [1]
  lhsBatch := []
  rhsBatch := []
  wf := dot_S50000x300_S300x300_S50000x300_1_0_0_1_n_n_wf

class Facts : Prop extends Facts₀ where

variable [Facts]
-- ==== Proof.Spec.lean ====
/-
  The kernel's result as ONE function of the argument arrays, stage by stage.

  A two-layer graph convolution over 50000 nodes and 800000 edges. Write `d r` for the inverse square root of
  (1 + the number of edges whose target is row `r`), `src e` for edge `e`'s source row (a negative row counts
  from the end; the gather clamps it into the array) and `dst e` for its target row (an edge whose target is
  outside the array is dropped by the scatter). One layer of the kernel, for a features array `X`, weights `W`
  and bias `b`:
    hs  r k = ∑ g, (scaled X) r g · W g k           — a matrix product of rows already scaled by `d r`
    seg r k = ∑ over edges e with dst e = r, hs (src e) k
    out r k = d r · (seg r k + hs r k) + b k.
  The second layer's scaled rows are `d r · out r g` of the first layer, taken before any array is written.
-/
import proofs.«153010_j17703855194320_2_alg».proof.KernelIdeal
import Idealize.ShloMosaic.PureOps.Ideal
import Idealize.ShloMosaic.Lib.ValueIdx

noncomputable section

namespace Cert.Gcn

open Idealize.ShloMosaic Idealize.ShloMosaic.ValueIdx Cert.KernelIdeal
open scoped BigOperators

variable [Cert.KernelIdeal.Facts]
open Cert.KernelIdeal.Facts₀ Cert.KernelIdeal.Facts

/-- A node-by-feature index's row. -/
abbrev row (i : S50000x300.Idx) : Fin 50000 := i 0
/-- A node-by-feature index's column. -/
abbrev col (i : S50000x300.Idx) : Fin 300 := i 1

/-- The edges' source rows: row 0 of the edge array. -/
def srcRaw (e : IVec S2x800000 32) : IVec S800000 32 :=
  shapeCast _ (extractStridedSlice S1x800000 ![0, 0] e slices_S2x800000_S1x800000_0_0) shapeCasts_S1x800000_S800000

/-- The edges' target rows: row 1 of the edge array. -/
def dstRaw (e : IVec S2x800000 32) : IVec S800000 32 :=
  shapeCast _ (extractStridedSlice S1x800000 ![1, 0] e slices_S2x800000_S1x800000_1_0) shapeCasts_S1x800000_S800000

/-- The target rows as the scatter's column of indices (read signed, not wrapped, not clamped). -/
def dstCol (e : IVec S2x800000 32) : IVec S800000x1 32 :=
  broadcastInDim S800000x1 ![0] bcast_S800000_S800000x1_0 (dstRaw e)

/-- The source rows as the gather's column of indices: a negative row counts from the end. -/
def srcCol (e : IVec S2x800000 32) : IVec S800000x1 32 :=
  broadcastInDim S800000x1 ![0] bcast_S800000_S800000x1_0
    (select (cmpi .slt (srcRaw e) (broadcastInDim S800000 ![] bcast_S_S800000 (constantI S_ 32 0#32)))
      (addi (srcRaw e) (broadcastInDim S800000 ![] bcast_S_S800000 (constantI S_ 32 50000#32))) (srcRaw e))

/-- `d`: the inverse square root of one plus each row's count of incoming edges. -/
def dinv (e : IVec S2x800000 32) : FVec Ideal S50000 .f32 :=
  Host.rsqrt (addf
    (Host.scatterAdd scatter_S50000_S800000x1_S800000_n_0_0_1
      (broadcastInDim S50000 ![] bcast_S_S50000 (constant S_ .f32 0x00000000#32)) (dstCol e)
      (broadcastInDim S800000 ![] bcast_S_S800000 (constant S_ .f32 0x3F800000#32)))
    (broadcastInDim S50000 ![] bcast_S_S50000 (constant S_ .f32 0x3F800000#32)))

/-- `d` as a column, the shape the kernels' windows take it in. -/
def dinvCol (e : IVec S2x800000 32) : FVec Ideal S50000x1 .f32 :=
  shapeCast _ (dinv e) shapeCasts_S50000_S50000x1

/-- A bias as a one-row array, the shape the kernels' windows take it in. -/
def rowVec (b : FVec Ideal S300 .f32) : FVec Ideal S1x300 .f32 :=
  shapeCast _ b shapeCasts_S300_S1x300

/-- The edge stage: each row's sum of the source rows of the edges that target it. -/
def segsum (e : IVec S2x800000 32) (h : FVec Ideal S50000x300 .f32) : FVec Ideal S50000x300 .f32 :=
  Host.scatterAdd scatter_S50000x300_S800000x1_S800000x300_1_0_0_1
    (broadcastInDim S50000x300 ![] bcast_S_S50000x300 (constant S_ .f32 0x00000000#32)) (dstCol e)
    (Host.gather gather_S50000x300_S800000x1_S800000x300_1_0_n_n_0_1_1300 h (srcCol e))

/-- The first projection: rows of `X` scaled by `d`, times `W`. -/
def proj1 (X : FVec Ideal S50000x128 .f32) (d : FVec Ideal S50000x1 .f32) (W : FVec Ideal S128x300 .f32) :
    FVec Ideal S50000x300 .f32 :=
  fun i => ∑ g : Fin 128, (X (ix2 (row i) g) * d (ix2 (row i) (0 : Fin 1))) * W (ix2 g (col i))

/-- A layer's combination: `d r · (seg + hs) + b`. -/
def combine (hs seg : FVec Ideal S50000x300 .f32) (d : FVec Ideal S50000x1 .f32) (b : FVec Ideal S1x300 .f32) :
    FVec Ideal S50000x300 .f32 :=
  fun i => d (ix2 (row i) (0 : Fin 1)) * (seg i + hs i) + b (ix2 (0 : Fin 1) (col i))

/-- The second projection, fused with the first layer's combination: rows `d r · (d r · (seg + hs) + b)`, times `W`. -/
def proj2 (hs seg : FVec Ideal S50000x300 .f32) (d : FVec Ideal S50000x1 .f32) (b : FVec Ideal S1x300 .f32)
    (W : FVec Ideal S300x300 .f32) : FVec Ideal S50000x300 .f32 :=
  fun i => ∑ g : Fin 300,
    (d (ix2 (row i) (0 : Fin 1)) * ((d (ix2 (row i) (0 : Fin 1)) * (seg (ix2 (row i) g) + hs (ix2 (row i) g))) + b (ix2 (0 : Fin 1) g)))
      * W (ix2 g (col i))

/-- The first layer's scaled projection. -/
def hs1 (V : FVec Ideal S50000x128 .f32) (e : IVec S2x800000 32) (W1 : FVec Ideal S128x300 .f32) : FVec Ideal S50000x300 .f32 :=
  proj1 V (dinvCol e) W1

/-- The second layer's scaled projection. -/
def hs2 (V : FVec Ideal S50000x128 .f32) (e : IVec S2x800000 32) (W1 : FVec Ideal S128x300 .f32) (b1 : FVec Ideal S300 .f32)
    (W2 : FVec Ideal S300x300 .f32) : FVec Ideal S50000x300 .f32 :=
  proj2 (hs1 V e W1) (segsum e (hs1 V e W1)) (dinvCol e) (rowVec b1) W2

/-- The kernel's result. -/
def kernelOut (V : FVec Ideal S50000x128 .f32) (e : IVec S2x800000 32) (W1 : FVec Ideal S128x300 .f32) (b1 : FVec Ideal S300 .f32)
    (W2 : FVec Ideal S300x300 .f32) (b2 : FVec Ideal S300 .f32) : FVec Ideal S50000x300 .f32 :=
  combine (hs2 V e W1 b1 W2) (segsum e (hs2 V e W1 b1 W2)) (dinvCol e) (rowVec b2)

end Cert.Gcn

end
-- ==== Proof.KernelRun.Host.lean ====
/-
  What each stretch of host operations leaves at one buffer, from any contents `X` of the TensorCore's buffers.

  The first stretch cuts the edge array into its two rows and computes `d` from the target rows; the second and
  the third each run the edge stage (gather the source rows, scatter-add them at the target rows) on one array
  and reshape one bias into a one-row array. Every other buffer keeps what it held.
-/
import proofs.«153010_j17703855194320_2_alg».proof.Proof.Spec
import proofs.«153010_j17703855194320_2_alg».proof.Proof.Gen.KernelIdeal.Launch
import Idealize.ShloMosaic.Lib.StableHlo.Run

noncomputable section

namespace Cert.Gcn.KernelRun

open Idealize.ShloMosaic Idealize.ShloMosaic.StableHlo
open Cert.KernelIdeal Cert.KernelIdeal.Gen

variable (X : Valuation τ sig (Elt Ideal))

/-! ## The buffers each stretch writes -/

/-- The buffers the first stretch writes. -/
abbrev written0 : List (Ref sig .tc) :=
  [main_v0, main_v1, main_v2, main_v3, main_cst, main_v4, main_cst_0, main_v5, main_v6, main_v7, main_cst_1, main_v8,
   main_v9, main_v10, main_v11]
/-- The buffers the second stretch writes. -/
abbrev written1 : List (Ref sig .tc) :=
  [main_c, main_v13, main_v14, main_c_2, main_v15, main_v16, main_v17, main_v18, main_v19, main_cst_3, main_v20,
   main_v21, main_v22, main_v23]
/-- The buffers the third stretch writes. -/
abbrev written2 : List (Ref sig .tc) :=
  [main_c_4, main_v25, main_v26, main_c_5, main_v27, main_v28, main_v29, main_v30, main_v31, main_cst_6, main_v32,
   main_v33, main_v34, main_v35]

theorem hostOps0_writes : (hostOps0 : List (HloOp τ sig (Elt Ideal))).Forall
    fun op => op.writes ⊆ (written0.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)
theorem hostOps1_writes : (hostOps1 : List (HloOp τ sig (Elt Ideal))).Forall
    fun op => op.writes ⊆ (written1.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)
theorem hostOps2_writes : (hostOps2 : List (HloOp τ sig (Elt Ideal))).Forall
    fun op => op.writes ⊆ (written2.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A buffer the first stretch does not write keeps its contents. -/
theorem keep0 (r : Ref sig .tc) (h : r ∉ written0) :
    after (hostOps0 (F := Ideal)) X (Proc.devRef .tc r) = X (Proc.devRef .tc r) :=
  after_of_writes_sub hostOps0 X hostOps0_writes h
/-- A buffer the second stretch does not write keeps its contents. -/
theorem keep1 (r : Ref sig .tc) (h : r ∉ written1) :
    after (hostOps1 (F := Ideal)) X (Proc.devRef .tc r) = X (Proc.devRef .tc r) :=
  after_of_writes_sub hostOps1 X hostOps1_writes h
/-- A buffer the third stretch does not write keeps its contents. -/
theorem keep2 (r : Ref sig .tc) (h : r ∉ written2) :
    after (hostOps2 (F := Ideal)) X (Proc.devRef .tc r) = X (Proc.devRef .tc r) :=
  after_of_writes_sub hostOps2 X hostOps2_writes h

/-! ## The first stretch -/

/-- The source rows: row 0 of the edge array. -/
theorem ops0_v1 : (after (hostOps0 (F := Ideal)) X (Proc.devRef .tc main_v1) : IVec S800000 32)
    = srcRaw (X (Proc.devRef .tc main_arg1)) := by
  after_results; rfl

/-- The target rows: row 1 of the edge array. -/
theorem ops0_v3 : (after (hostOps0 (F := Ideal)) X (Proc.devRef .tc main_v3) : IVec S800000 32)
    = dstRaw (X (Proc.devRef .tc main_arg1)) := by
  after_results; rfl

/-- `d` as a column. -/
theorem ops0_v11 : (after (hostOps0 (F := Ideal)) X (Proc.devRef .tc main_v11) : FVec Ideal S50000x1 .f32)
    = dinvCol (X (Proc.devRef .tc main_arg1)) := by
  after_results; rfl

/-! ## The second stretch -/

/-- The edge stage on the array in `main_v12`, once the two index rows are the edge array's. -/
theorem ops1_v22 (e : IVec S2x800000 32)
    (hs : (X (Proc.devRef .tc main_v1) : IVec S800000 32) = srcRaw e)
    (hd : (X (Proc.devRef .tc main_v3) : IVec S800000 32) = dstRaw e) :
    (after (hostOps1 (F := Ideal)) X (Proc.devRef .tc main_v22) : FVec Ideal S50000x300 .f32)
      = segsum e (X (Proc.devRef .tc main_v12)) := by
  after_results
  rw [hs, hd]; rfl

/-- The first bias as a one-row array. -/
theorem ops1_v23 : (after (hostOps1 (F := Ideal)) X (Proc.devRef .tc main_v23) : FVec Ideal S1x300 .f32)
    = rowVec (X (Proc.devRef .tc main_arg3)) := by
  after_results; rfl

/-! ## The third stretch -/

/-- The edge stage on the array in `main_v24`, once the two index rows are the edge array's. -/
theorem ops2_v34 (e : IVec S2x800000 32)
    (hs : (X (Proc.devRef .tc main_v1) : IVec S800000 32) = srcRaw e)
    (hd : (X (Proc.devRef .tc main_v3) : IVec S800000 32) = dstRaw e) :
    (after (hostOps2 (F := Ideal)) X (Proc.devRef .tc main_v34) : FVec Ideal S50000x300 .f32)
      = segsum e (X (Proc.devRef .tc main_v24)) := by
  after_results
  rw [hs, hd]; rfl

/-- The second bias as a one-row array. -/
theorem ops2_v35 : (after (hostOps2 (F := Ideal)) X (Proc.devRef .tc main_v35) : FVec Ideal S1x300 .f32)
    = rowVec (X (Proc.devRef .tc main_arg5)) := by
  after_results; rfl

end Cert.Gcn.KernelRun

end
-- ==== Proof.KernelRun.Fold.lean ====
/-
  The TensorCore's buffer contents at each boundary of the program, read one buffer at a time.

  From the launch memory the first stretch of host operations leaves the edge array's two rows and `d`; region 0
  leaves the first layer's scaled projection; the second stretch runs the edge stage on it and reshapes the first
  bias; region 1 leaves the second layer's scaled projection; the third stretch runs the edge stage on that and
  reshapes the second bias; region 2 leaves the result. Each region is taken by what its output array holds at its
  exit as a function of its input arrays at its entry (the three hypotheses `Reg0`, `Reg1`, `Reg2`); its
  input arrays, and every buffer that is no array of it, it leaves as entered.
-/
import proofs.«153010_j17703855194320_2_alg».proof.Proof.Spec
import proofs.«153010_j17703855194320_2_alg».proof.Proof.Gen.KernelIdeal.Frame
import proofs.«153010_j17703855194320_2_alg».proof.Proof.KernelRun.Host

set_option maxRecDepth 16384

noncomputable section

namespace Cert.Gcn.KernelRun

open Idealize.ShloMosaic Idealize.ShloMosaic.TcCoe
open Idealize.ShloMosaic.Pipeline (Dat Cfg)
open Cert.KernelIdeal Cert.KernelIdeal.Gen

/-- Region 0's output array at its exit: the first projection of its input arrays at its entry. -/
abbrev Reg0 : Prop :=
  ∀ (V : (c : Dev nD) → (b : Ref sig .tc) → Buf (Elt Ideal) ((c : Thread nD τ).loc b)) (c : Dev nD),
    (dat0 (F := Ideal) V c).arrAt 3 cfg0.N = proj1 (V c main_arg0) (V c main_v11) (V c main_arg2)

/-- Region 1's output array at its exit: the second projection of its input arrays at its entry. -/
abbrev Reg1 : Prop :=
  ∀ (V : (c : Dev nD) → (b : Ref sig .tc) → Buf (Elt Ideal) ((c : Thread nD τ).loc b)) (c : Dev nD),
    (dat1 (F := Ideal) V c).arrAt 5 cfg1.N
      = proj2 (V c main_v12) (V c main_v22) (V c main_v11) (V c main_v23) (V c main_arg4)

/-- Region 2's output array at its exit: the combination of its input arrays at its entry. -/
abbrev Reg2 : Prop :=
  ∀ (V : (c : Dev nD) → (b : Ref sig .tc) → Buf (Elt Ideal) ((c : Thread nD τ).loc b)) (c : Dev nD),
    (dat2 (F := Ideal) V c).arrAt 4 cfg2.N = combine (V c main_v24) (V c main_v34) (V c main_v11) (V c main_v35)

/-! ## Congruences of the stage functions -/

theorem proj1_congr {X X' : FVec Ideal S50000x128 .f32} {d d' : FVec Ideal S50000x1 .f32} {W W' : FVec Ideal S128x300 .f32}
    (hX : X = X') (hd : d = d') (hW : W = W') : proj1 X d W = proj1 X' d' W' := by rw [hX, hd, hW]

theorem proj2_congr {hs hs' seg seg' : FVec Ideal S50000x300 .f32} {d d' : FVec Ideal S50000x1 .f32}
    {b b' : FVec Ideal S1x300 .f32} {W W' : FVec Ideal S300x300 .f32}
    (h1 : hs = hs') (h2 : seg = seg') (h3 : d = d') (h4 : b = b') (h5 : W = W') :
    proj2 hs seg d b W = proj2 hs' seg' d' b' W' := by rw [h1, h2, h3, h4, h5]

theorem combine_congr {hs hs' seg seg' : FVec Ideal S50000x300 .f32} {d d' : FVec Ideal S50000x1 .f32}
    {b b' : FVec Ideal S1x300 .f32} (h1 : hs = hs') (h2 : seg = seg') (h3 : d = d') (h4 : b = b') :
    combine hs seg d b = combine hs' seg' d' b' := by rw [h1, h2, h3, h4]

section Fold

variable (m : (ℓ : Loc nD τ sig) → Buf (Elt Ideal) ℓ) (ρ : Dev nD → PrngReg) (c : Dev nD)

/-! ## After the first stretch -/

theorem W1_arg0 : W1 m ρ c (Proc.devRef .tc main_arg0) = (m ((c.tc : Thread nD τ).loc main_arg0)) := keep0 (W0 m ρ c) main_arg0 (by decide)
theorem W1_arg2 : W1 m ρ c (Proc.devRef .tc main_arg2) = (m ((c.tc : Thread nD τ).loc main_arg2)) := keep0 (W0 m ρ c) main_arg2 (by decide)
theorem W1_arg3 : W1 m ρ c (Proc.devRef .tc main_arg3) = (m ((c.tc : Thread nD τ).loc main_arg3)) := keep0 (W0 m ρ c) main_arg3 (by decide)
theorem W1_arg4 : W1 m ρ c (Proc.devRef .tc main_arg4) = (m ((c.tc : Thread nD τ).loc main_arg4)) := keep0 (W0 m ρ c) main_arg4 (by decide)
theorem W1_arg5 : W1 m ρ c (Proc.devRef .tc main_arg5) = (m ((c.tc : Thread nD τ).loc main_arg5)) := keep0 (W0 m ρ c) main_arg5 (by decide)
theorem W1_v1 : (W1 m ρ c (Proc.devRef .tc main_v1) : IVec S800000 32) = srcRaw (m ((c.tc : Thread nD τ).loc main_arg1)) := ops0_v1 (W0 m ρ c)
theorem W1_v3 : (W1 m ρ c (Proc.devRef .tc main_v3) : IVec S800000 32) = dstRaw (m ((c.tc : Thread nD τ).loc main_arg1)) := ops0_v3 (W0 m ρ c)
theorem W1_v11 : (W1 m ρ c (Proc.devRef .tc main_v11) : FVec Ideal S50000x1 .f32) = dinvCol (m ((c.tc : Thread nD τ).loc main_arg1)) := ops0_v11 (W0 m ρ c)

/-! ## At region 0's exit -/

theorem W2_v12 (h0 : Reg0) :
    (W2 m ρ c (Proc.devRef .tc main_v12) : FVec Ideal S50000x300 .f32) = hs1 (m ((c.tc : Thread nD τ).loc main_arg0)) (m ((c.tc : Thread nD τ).loc main_arg1)) (m ((c.tc : Thread nD τ).loc main_arg2)) :=
  (W2_arr m ρ c 3).trans ((h0 (V1 m ρ) c).trans (proj1_congr (W1_arg0 m ρ c) (W1_v11 m ρ c) (W1_arg2 m ρ c)))
theorem W2_v11 : (W2 m ρ c (Proc.devRef .tc main_v11) : FVec Ideal S50000x1 .f32) = dinvCol (m ((c.tc : Thread nD τ).loc main_arg1)) :=
  ((W2_arr m ρ c 1).trans (((dat0 (V1 m ρ) c).arrAt_in 1 rfl _).trans (A_eq0 (V1 m ρ) c 1))).trans (W1_v11 m ρ c)
theorem W2_v1 : (W2 m ρ c (Proc.devRef .tc main_v1) : IVec S800000 32) = srcRaw (m ((c.tc : Thread nD τ).loc main_arg1)) :=
  (W2_of_ne m ρ c main_v1 (by decide)).trans (W1_v1 m ρ c)
theorem W2_v3 : (W2 m ρ c (Proc.devRef .tc main_v3) : IVec S800000 32) = dstRaw (m ((c.tc : Thread nD τ).loc main_arg1)) :=
  (W2_of_ne m ρ c main_v3 (by decide)).trans (W1_v3 m ρ c)
theorem W2_arg3 : W2 m ρ c (Proc.devRef .tc main_arg3) = (m ((c.tc : Thread nD τ).loc main_arg3)) :=
  (W2_of_ne m ρ c main_arg3 (by decide)).trans (W1_arg3 m ρ c)
theorem W2_arg4 : W2 m ρ c (Proc.devRef .tc main_arg4) = (m ((c.tc : Thread nD τ).loc main_arg4)) :=
  (W2_of_ne m ρ c main_arg4 (by decide)).trans (W1_arg4 m ρ c)
theorem W2_arg5 : W2 m ρ c (Proc.devRef .tc main_arg5) = (m ((c.tc : Thread nD τ).loc main_arg5)) :=
  (W2_of_ne m ρ c main_arg5 (by decide)).trans (W1_arg5 m ρ c)

/-! ## After the second stretch -/

theorem W3_v12 (h0 : Reg0) :
    (W3 m ρ c (Proc.devRef .tc main_v12) : FVec Ideal S50000x300 .f32) = hs1 (m ((c.tc : Thread nD τ).loc main_arg0)) (m ((c.tc : Thread nD τ).loc main_arg1)) (m ((c.tc : Thread nD τ).loc main_arg2)) :=
  (keep1 (W2 m ρ c) main_v12 (by decide)).trans (W2_v12 m ρ c h0)
theorem W3_v22 (h0 : Reg0) :
    (W3 m ρ c (Proc.devRef .tc main_v22) : FVec Ideal S50000x300 .f32) = segsum (m ((c.tc : Thread nD τ).loc main_arg1)) (hs1 (m ((c.tc : Thread nD τ).loc main_arg0)) (m ((c.tc : Thread nD τ).loc main_arg1)) (m ((c.tc : Thread nD τ).loc main_arg2))) :=
  (ops1_v22 (W2 m ρ c) (m ((c.tc : Thread nD τ).loc main_arg1)) (W2_v1 m ρ c) (W2_v3 m ρ c)).trans (congrArg (segsum (m ((c.tc : Thread nD τ).loc main_arg1))) (W2_v12 m ρ c h0))
theorem W3_v11 : (W3 m ρ c (Proc.devRef .tc main_v11) : FVec Ideal S50000x1 .f32) = dinvCol (m ((c.tc : Thread nD τ).loc main_arg1)) :=
  (keep1 (W2 m ρ c) main_v11 (by decide)).trans (W2_v11 m ρ c)
theorem W3_v23 : (W3 m ρ c (Proc.devRef .tc main_v23) : FVec Ideal S1x300 .f32) = rowVec (m ((c.tc : Thread nD τ).loc main_arg3)) :=
  (ops1_v23 (W2 m ρ c)).trans (congrArg rowVec (W2_arg3 m ρ c))
theorem W3_arg4 : W3 m ρ c (Proc.devRef .tc main_arg4) = (m ((c.tc : Thread nD τ).loc main_arg4)) :=
  (keep1 (W2 m ρ c) main_arg4 (by decide)).trans (W2_arg4 m ρ c)
theorem W3_arg5 : W3 m ρ c (Proc.devRef .tc main_arg5) = (m ((c.tc : Thread nD τ).loc main_arg5)) :=
  (keep1 (W2 m ρ c) main_arg5 (by decide)).trans (W2_arg5 m ρ c)
theorem W3_v1 : (W3 m ρ c (Proc.devRef .tc main_v1) : IVec S800000 32) = srcRaw (m ((c.tc : Thread nD τ).loc main_arg1)) :=
  (keep1 (W2 m ρ c) main_v1 (by decide)).trans (W2_v1 m ρ c)
theorem W3_v3 : (W3 m ρ c (Proc.devRef .tc main_v3) : IVec S800000 32) = dstRaw (m ((c.tc : Thread nD τ).loc main_arg1)) :=
  (keep1 (W2 m ρ c) main_v3 (by decide)).trans (W2_v3 m ρ c)

/-! ## At region 1's exit -/

theorem W4_v24 (h0 : Reg0) (h1 : Reg1) :
    (W4 m ρ c (Proc.devRef .tc main_v24) : FVec Ideal S50000x300 .f32) = hs2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (W4_arr m ρ c 5).trans ((h1 (V3 m ρ) c).trans
    (proj2_congr (W3_v12 m ρ c h0) (W3_v22 m ρ c h0) (W3_v11 m ρ c) (W3_v23 m ρ c) (W3_arg4 m ρ c)))
theorem W4_v11 : (W4 m ρ c (Proc.devRef .tc main_v11) : FVec Ideal S50000x1 .f32) = dinvCol (m ((c.tc : Thread nD τ).loc main_arg1)) :=
  ((W4_arr m ρ c 2).trans (((dat1 (V3 m ρ) c).arrAt_in 2 rfl _).trans (A_eq1 (V3 m ρ) c 2))).trans (W3_v11 m ρ c)
theorem W4_v1 : (W4 m ρ c (Proc.devRef .tc main_v1) : IVec S800000 32) = srcRaw (m ((c.tc : Thread nD τ).loc main_arg1)) :=
  (W4_of_ne m ρ c main_v1 (by decide)).trans (W3_v1 m ρ c)
theorem W4_v3 : (W4 m ρ c (Proc.devRef .tc main_v3) : IVec S800000 32) = dstRaw (m ((c.tc : Thread nD τ).loc main_arg1)) :=
  (W4_of_ne m ρ c main_v3 (by decide)).trans (W3_v3 m ρ c)
theorem W4_arg5 : W4 m ρ c (Proc.devRef .tc main_arg5) = (m ((c.tc : Thread nD τ).loc main_arg5)) :=
  (W4_of_ne m ρ c main_arg5 (by decide)).trans (W3_arg5 m ρ c)

/-! ## After the third stretch -/

theorem W5_v24 (h0 : Reg0) (h1 : Reg1) :
    (W5 m ρ c (Proc.devRef .tc main_v24) : FVec Ideal S50000x300 .f32) = hs2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (keep2 (W4 m ρ c) main_v24 (by decide)).trans (W4_v24 m ρ c h0 h1)
theorem W5_v34 (h0 : Reg0) (h1 : Reg1) :
    (W5 m ρ c (Proc.devRef .tc main_v34) : FVec Ideal S50000x300 .f32) = segsum (m ((c.tc : Thread nD τ).loc main_arg1)) (hs2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) :=
  (ops2_v34 (W4 m ρ c) (m ((c.tc : Thread nD τ).loc main_arg1)) (W4_v1 m ρ c) (W4_v3 m ρ c)).trans (congrArg (segsum (m ((c.tc : Thread nD τ).loc main_arg1))) (W4_v24 m ρ c h0 h1))
theorem W5_v11 : (W5 m ρ c (Proc.devRef .tc main_v11) : FVec Ideal S50000x1 .f32) = dinvCol (m ((c.tc : Thread nD τ).loc main_arg1)) :=
  (keep2 (W4 m ρ c) main_v11 (by decide)).trans (W4_v11 m ρ c)
theorem W5_v35 : (W5 m ρ c (Proc.devRef .tc main_v35) : FVec Ideal S1x300 .f32) = rowVec (m ((c.tc : Thread nD τ).loc main_arg5)) :=
  (ops2_v35 (W4 m ρ c)).trans (congrArg rowVec (W4_arg5 m ρ c))

/-! ## At region 2's exit: the result -/

/-- The result buffer at the last boundary holds the kernel's result of the six argument arrays as launched. -/
theorem W6_v36 (h0 : Reg0) (h1 : Reg1) (h2 : Reg2) :
    (W6 m ρ c (Proc.devRef .tc main_v36) : FVec Ideal S50000x300 .f32) = kernelOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (W6_arr m ρ c 4).trans ((h2 (V5 m ρ) c).trans
    (combine_congr (W5_v24 m ρ c h0 h1) (W5_v34 m ρ c h0 h1) (W5_v11 m ρ c) (W5_v35 m ρ c)))

end Fold

end Cert.Gcn.KernelRun

end
-- ==== Proof.KernelRun.lean ====
/-
  The kernel's run with its result named.

  The TensorCore's buffer contents are folded through the program: from the launch memory, through each stretch
  of host operations and each region's arrays, to the contents `W6` every unscoped buffer ends at. The run's
  final memory is read against `W6`: the result buffer holds `W6` at it, and the six argument arrays hold what
  they were launched with. Then `W6` at the result buffer is walked back one buffer at a time to the launch
  memory, which names it as `Cert.Gcn.kernelOut` of the six argument arrays.
-/
import proofs.«153010_j17703855194320_2_alg».proof.Proof.Spec
import proofs.«153010_j17703855194320_2_alg».proof.Proof.Gen.KernelIdeal.Frame
import proofs.«153010_j17703855194320_2_alg».proof.Proof.KernelRun.Fold

set_option maxRecDepth 16384

noncomputable section

namespace Cert.Gcn.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- At the compiled mesh, from any memory with zero counters, every weakly fair execution of the program on the
    TensorCores terminates, nothing faulting, and in every final state the result buffer holds the last boundary's
    contents `W6` at it and the six argument arrays hold what they were launched with. -/
theorem run_W6 : θ_run defs (onTc (τ := τ) (main (F := F))) ⟨m, fun _ => 0, ρ⟩ (fun r => ∀ c : Dev nD,
      r.2.mem ((c.tc : Thread nD τ).loc main_v36) = W6 m ρ c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v36 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Run

section Out

variable (m : (ℓ : Loc nD τ sig) → Buf (Elt Ideal) ℓ) (ρ : Dev nD → PrngReg)

/-- Given what each region's output array holds at its exit as a function of its input arrays at its entry, the
    result buffer at the last boundary holds the kernel's result of the six argument arrays as launched. -/
theorem W6_out
    (h0 : ∀ (V : (c : Dev nD) → (b : Ref sig .tc) → Buf (Elt Ideal) ((c : Thread nD τ).loc b)) (c : Dev nD),
      (dat0 (F := Ideal) V c).arrAt 3 cfg0.N = proj1 (V c main_arg0) (V c main_v11) (V c main_arg2))
    (h1 : ∀ (V : (c : Dev nD) → (b : Ref sig .tc) → Buf (Elt Ideal) ((c : Thread nD τ).loc b)) (c : Dev nD),
      (dat1 (F := Ideal) V c).arrAt 5 cfg1.N
        = proj2 (V c main_v12) (V c main_v22) (V c main_v11) (V c main_v23) (V c main_arg4))
    (h2 : ∀ (V : (c : Dev nD) → (b : Ref sig .tc) → Buf (Elt Ideal) ((c : Thread nD τ).loc b)) (c : Dev nD),
      (dat2 (F := Ideal) V c).arrAt 4 cfg2.N = combine (V c main_v24) (V c main_v34) (V c main_v11) (V c main_v35))
    (c : Dev nD) :
    (W6 (F := Ideal) m ρ c (Proc.devRef .tc main_v36) : FVec Ideal S50000x300 .f32)
      = kernelOut (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5)) :=
  W6_v36 m ρ c h0 h1 h2

/-- The run with its result named: every weakly fair execution of the program terminates, nothing faulting, and in
    every final state the result buffer holds the kernel's result of the six argument arrays as launched, and the
    six argument arrays hold what they were launched with. -/
theorem run
    (h0 : ∀ (V : (c : Dev nD) → (b : Ref sig .tc) → Buf (Elt Ideal) ((c : Thread nD τ).loc b)) (c : Dev nD),
      (dat0 (F := Ideal) V c).arrAt 3 cfg0.N = proj1 (V c main_arg0) (V c main_v11) (V c main_arg2))
    (h1 : ∀ (V : (c : Dev nD) → (b : Ref sig .tc) → Buf (Elt Ideal) ((c : Thread nD τ).loc b)) (c : Dev nD),
      (dat1 (F := Ideal) V c).arrAt 5 cfg1.N
        = proj2 (V c main_v12) (V c main_v22) (V c main_v11) (V c main_v23) (V c main_arg4))
    (h2 : ∀ (V : (c : Dev nD) → (b : Ref sig .tc) → Buf (Elt Ideal) ((c : Thread nD τ).loc b)) (c : Dev nD),
      (dat2 (F := Ideal) V c).arrAt 4 cfg2.N = combine (V c main_v24) (V c main_v34) (V c main_v11) (V c main_v35)) :
    θ_run defs (onTc (τ := τ) (main (F := Ideal))) ⟨m, fun _ => 0, ρ⟩ (fun r => ∀ c : Dev nD,
      (r.2.mem ((c.tc : Thread nD τ).loc main_v36) : FVec Ideal S50000x300 .f32)
        = kernelOut (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (W6_out m ρ h0 h1 h2 c), (h c).2⟩) (run_W6 m ρ)

end Out

end Cert.Gcn.KernelRun

end
-- ==== Proof.Regions.lean ====
/-
  The three TensorCore regions, from blocks to whole arrays.

  Each region walks 25 grid points; at point `t` every row window holds rows `2000·t … 2000·t + 1999` of its array, and
  the small windows (a bias row, a weight matrix) hold their whole array. The body computes one block of 2000 rows of
  the result from the blocks it holds, and that block is written back whole. An entry `(r, k)` of a result therefore
  depends only on row `r` of the row arrays: it is the entry `(r mod 2000, k)` of the block of point `r / 2000`.
  Since the 25 blocks cover the 50000 rows, each region leaves in its result array ONE function of the arrays it finds
  on entry: the scaled projection `proj1`, the fused combination and projection `proj2`, and the combination `combine`.
-/
import proofs.«153010_j17703855194320_2_alg».proof.Proof.Spec
import proofs.«153010_j17703855194320_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gcn.Regions

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-- The origin of a two-axis block. -/
theorem origin2 : (![0, 0] : Fin 2 → Nat) = fun _ => 0 := funext fun a => by fin_cases a <;> rfl

/-- A column `[a, 1]` broadcast to `[a, b]` reads, at `(p, q)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

variable (V : (c : Dev nD) → (b : Ref sig .tc) → Buf (Elt Ideal) ((c : Thread nD τ).loc b))

/-! ## Region 0: rows scaled by `d`, times the first weights -/

/-- The first projection at an index, from reads of its three arrays at indices known only up to equations. -/
theorem proj1_of_reads (X : FVec Ideal S50000x128 .f32) (d : FVec Ideal S50000x1 .f32) (W : FVec Ideal S128x300 .f32)
    (i : S50000x300.Idx) (a : Fin 128 → S50000x128.Idx) (b : S50000x1.Idx) (w : Fin 128 → S128x300.Idx)
    (ha : ∀ g, a g = ix2 (Cert.Gcn.row i) g) (hb : b = ix2 (Cert.Gcn.row i) (0 : Fin 1)) (hw : ∀ g, w g = ix2 g (Cert.Gcn.col i)) :
    ∑ g : Fin 128, (X (a g) * d b) * W (w g) = Cert.Gcn.proj1 X d W i := by
  subst hb
  show _ = ∑ g : Fin 128, (X (ix2 (Cert.Gcn.row i) g) * d (ix2 (Cert.Gcn.row i) (0 : Fin 1))) * W (ix2 g (Cert.Gcn.col i))
  refine Finset.sum_congr rfl fun g _ => ?_
  rw [ha, hw]

/-- The body's result at any entry of its block, from its reading at an entry given by coordinates. -/
theorem proj1Block_apply
    (hpay : ∀ (x0 : Vec Ideal S2000x128 .f32) (x1 : Vec Ideal S2000x1 .f32) (x2 : Vec Ideal S128x300 .f32) (p : Fin 2000) (q : Fin 300),
      k0_pay1 x0 x1 x2 (ix2 p q) = ∑ g : Fin 128, (x0 (ix2 p g) * x1 (ix2 p (0 : Fin 1))) * x2 (ix2 g q))
    (x0 : Vec Ideal S2000x128 .f32) (x1 : Vec Ideal S2000x1 .f32) (x2 : Vec Ideal S128x300 .f32) (j : S2000x300.Idx) :
    k0_pay1 x0 x1 x2 j = ∑ g : Fin 128, (x0 (ix2 (j 0) g) * x1 (ix2 (j 0) (0 : Fin 1))) * x2 (ix2 g (j 1)) := by
  obtain ⟨p, q, rfl⟩ : ∃ (p : Fin 2000) (q : Fin 300), j = ix2 p q := ⟨j 0, j 1, eq_ix2 j⟩
  exact hpay x0 x1 x2 p q

/-- The index maps of region 0 over its 25 points: the row windows' block index is the point, the weights
    window's is the origin. -/
theorem proj1_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the first projection of the arrays as the region finds them. -/
theorem proj1_flushed
    (hpay : ∀ (x0 : Vec Ideal S2000x128 .f32) (x1 : Vec Ideal S2000x1 .f32) (x2 : Vec Ideal S128x300 .f32) (p : Fin 2000) (q : Fin 300),
      k0_pay1 x0 x1 x2 (ix2 p q) = ∑ g : Fin 128, (x0 (ix2 p g) * x1 (ix2 p (0 : Fin 1))) * x2 (ix2 g q))
    (c : Dev nD) (t : Fin cfg0.N) :
    (dat0 (F := Ideal) V c).flushed 3 t = ((cfg0.win 3).blk t).view.read (Elt Ideal)
      (Cert.Gcn.proj1 (V c main_arg0) (V c main_v11) (V c main_arg2)) := by
  show (cfg0.win 3).cut (grid0.coords t) ((dat0 (F := Ideal) V c).after 3 t) = _
  rw [after0_3]
  unfold out0_3
  rw [View.canon_unit_zero origin2]
  simp only [View.ld_unit_zero (S := S2000x128) origin2, View.ld_unit_zero (S := S2000x1) origin2, View.ld_unit_zero (S := S128x300) origin2]
  obtain ⟨e00, e01, e10, e11, e20, e21, e30, e31⟩ := proj1_index t
  funext j
  refine (proj1Block_apply hpay (iblk0 V c 0 t) (iblk0 V c 1 t) (iblk0 V c 2 t) j).trans ?_
  refine proj1_of_reads (V c main_arg0) (V c main_v11) (V c main_arg2) (((cfg0.win 3).blk t).view.emb j)
    (fun g => ((cfg0.win 0).blk t).view.emb (ix2 (j 0) g)) (((cfg0.win 1).blk t).view.emb (ix2 (j 0) (0 : Fin 1)))
    (fun g => ((cfg0.win 2).blk t).view.emb (ix2 g (j 1))) (fun g => ?_) ?_ (fun g => ?_)
  · funext a; apply Fin.ext
    match a with
    | ⟨0, _⟩ => show win0_0.index t (0 : Fin 2) * 2000 + 1 * (j 0).val = win0_3.index t (0 : Fin 2) * 2000 + 1 * (j 0).val; omega
    | ⟨1, _⟩ => show win0_0.index t (1 : Fin 2) * 128 + 1 * g.val = g.val; omega
  · funext a; apply Fin.ext
    match a with
    | ⟨0, _⟩ => show win0_1.index t (0 : Fin 2) * 2000 + 1 * (j 0).val = win0_3.index t (0 : Fin 2) * 2000 + 1 * (j 0).val; omega
    | ⟨1, _⟩ => show win0_1.index t (1 : Fin 2) * 1 + 1 * 0 = 0; omega
  · funext a; apply Fin.ext
    match a with
    | ⟨0, _⟩ => show win0_2.index t (0 : Fin 2) * 128 + 1 * g.val = g.val; omega
    | ⟨1, _⟩ => show win0_2.index t (1 : Fin 2) * 300 + 1 * (j 1).val = win0_3.index t (1 : Fin 2) * 300 + 1 * (j 1).val; omega

/-- An index of the result array is in point `t`'s block iff each coordinate is in the block's range on its axis. -/
theorem proj1_mem_block (t : Fin cfg0.N) (i : S50000x300.Idx) :
    i ∈ ((cfg0.win 3).blk t).view.set ↔ ∀ a : Fin 2, win0_3.index t a * S2000x300.size a ≤ (i a).val ∧ (i a).val < win0_3.index t a * S2000x300.size a + S2000x300.size a := by
  show i ∈ ((View.whole main_v12).slice (win0_3.rect t)).set ↔ _
  rw [View.set_slice_whole, Rect.mem_set_unit]
  exact Iff.rfl

/-- Row `r` lies in the block of point `r / 2000`: the 25 blocks of 2000 rows cover the 50000 rows. -/
theorem proj1_cover (i : S50000x300.Idx) :
    ∃ t : Fin cfg0.N, (cfg0.win 3).flush t = true ∧ i ∈ ((cfg0.win 3).blk t).view.set := by
  have hi0 : (i 0).val < 50000 := (i 0).isLt
  have hi1 : (i 1).val < 300 := (i 1).isLt
  have hN : cfg0.N = 25 := N_0
  let t : Fin cfg0.N := ⟨(i 0).val / 2000, by rw [hN]; omega⟩
  obtain ⟨-, -, -, -, -, -, e30, e31⟩ := proj1_index t
  have ht : t.val = (i 0).val / 2000 := rfl
  refine ⟨t, flush0_3 t, ?_⟩
  rw [proj1_mem_block]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 300 ≤ (i 1).val ∧ (i 1).val < win0_3.index t (1 : Fin 2) * 300 + 300; omega

/-- Region 0 leaves in its result array the first projection of the arrays it finds, given the body's reading. -/
theorem final0_of
    (hpay : ∀ (x0 : Vec Ideal S2000x128 .f32) (x1 : Vec Ideal S2000x1 .f32) (x2 : Vec Ideal S128x300 .f32) (p : Fin 2000) (q : Fin 300),
      k0_pay1 x0 x1 x2 (ix2 p q) = ∑ g : Fin 128, (x0 (ix2 p g) * x1 (ix2 p (0 : Fin 1))) * x2 (ix2 g q))
    (c : Dev nD) :
    (Cert.KernelIdeal.Gen.dat0 (F := Ideal) V c).arrAt 3 cfg0.N
      = Cert.Gcn.proj1 (V c main_arg0) (V c main_v11) (V c main_arg2) :=
  (dat0 (F := Ideal) V c).arrAt_eq_of_cover 3 _ (fun t _ => proj1_flushed V hpay c t) proj1_cover

/-! ## Region 1: the first layer's combination, scaled again, times the second weights -/

/-- The second projection at an index, from reads of its five arrays at indices known only up to equations. -/
theorem proj2_of_reads (hs seg : FVec Ideal S50000x300 .f32) (d : FVec Ideal S50000x1 .f32) (b : FVec Ideal S1x300 .f32)
    (W : FVec Ideal S300x300 .f32) (i : S50000x300.Idx)
    (a0 a1 : Fin 300 → S50000x300.Idx) (a2 : S50000x1.Idx) (a3 : Fin 300 → S1x300.Idx) (a4 : Fin 300 → S300x300.Idx)
    (h0 : ∀ g, a0 g = ix2 (Cert.Gcn.row i) g) (h1 : ∀ g, a1 g = ix2 (Cert.Gcn.row i) g)
    (h2 : a2 = ix2 (Cert.Gcn.row i) (0 : Fin 1)) (h3 : ∀ g, a3 g = ix2 (0 : Fin 1) g) (h4 : ∀ g, a4 g = ix2 g (Cert.Gcn.col i)) :
    ∑ g : Fin 300, (d a2 * ((d a2 * (seg (a1 g) + hs (a0 g))) + b (a3 g))) * W (a4 g) = Cert.Gcn.proj2 hs seg d b W i := by
  subst h2
  show _ = ∑ g : Fin 300,
    (d (ix2 (Cert.Gcn.row i) (0 : Fin 1)) * ((d (ix2 (Cert.Gcn.row i) (0 : Fin 1)) * (seg (ix2 (Cert.Gcn.row i) g) + hs (ix2 (Cert.Gcn.row i) g))) + b (ix2 (0 : Fin 1) g)))
      * W (ix2 g (Cert.Gcn.col i))
  refine Finset.sum_congr rfl fun g _ => ?_
  rw [h0, h1, h3, h4]

/-- The body's result at any entry of its block, from its reading at an entry given by coordinates. -/
theorem proj2Block_apply
    (hpay : ∀ (x0 x1 : Vec Ideal S2000x300 .f32) (x2 : Vec Ideal S2000x1 .f32) (x3 : Vec Ideal S1x300 .f32) (x4 : Vec Ideal S300x300 .f32)
      (p : Fin 2000) (q : Fin 300),
      k1_pay1 x0 x1 x2 x3 x4 (ix2 p q) = ∑ g : Fin 300,
        (x2 (ix2 p (0 : Fin 1)) * ((x2 (ix2 p (0 : Fin 1)) * (x1 (ix2 p g) + x0 (ix2 p g))) + x3 (ix2 (0 : Fin 1) g))) * x4 (ix2 g q))
    (x0 x1 : Vec Ideal S2000x300 .f32) (x2 : Vec Ideal S2000x1 .f32) (x3 : Vec Ideal S1x300 .f32) (x4 : Vec Ideal S300x300 .f32)
    (j : S2000x300.Idx) :
    k1_pay1 x0 x1 x2 x3 x4 j = ∑ g : Fin 300,
      (x2 (ix2 (j 0) (0 : Fin 1)) * ((x2 (ix2 (j 0) (0 : Fin 1)) * (x1 (ix2 (j 0) g) + x0 (ix2 (j 0) g))) + x3 (ix2 (0 : Fin 1) g))) * x4 (ix2 g (j 1)) := by
  obtain ⟨p, q, rfl⟩ : ∃ (p : Fin 2000) (q : Fin 300), j = ix2 p q := ⟨j 0, j 1, eq_ix2 j⟩
  exact hpay x0 x1 x2 x3 x4 p q

/-- The index maps of region 1 over its 25 points: the row windows' block index is the point, the bias and
    weights windows' is the origin. -/
theorem proj2_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is block `t` of the second projection of the arrays as the region finds them. -/
theorem proj2_flushed
    (hpay : ∀ (x0 x1 : Vec Ideal S2000x300 .f32) (x2 : Vec Ideal S2000x1 .f32) (x3 : Vec Ideal S1x300 .f32) (x4 : Vec Ideal S300x300 .f32)
      (p : Fin 2000) (q : Fin 300),
      k1_pay1 x0 x1 x2 x3 x4 (ix2 p q) = ∑ g : Fin 300,
        (x2 (ix2 p (0 : Fin 1)) * ((x2 (ix2 p (0 : Fin 1)) * (x1 (ix2 p g) + x0 (ix2 p g))) + x3 (ix2 (0 : Fin 1) g))) * x4 (ix2 g q))
    (c : Dev nD) (t : Fin cfg1.N) :
    (dat1 (F := Ideal) V c).flushed 5 t = ((cfg1.win 5).blk t).view.read (Elt Ideal)
      (Cert.Gcn.proj2 (V c main_v12) (V c main_v22) (V c main_v11) (V c main_v23) (V c main_arg4)) := by
  show (cfg1.win 5).cut (grid1.coords t) ((dat1 (F := Ideal) V c).after 5 t) = _
  rw [after1_5]
  unfold out1_5
  rw [View.canon_unit_zero origin2]
  simp only [View.ld_unit_zero (S := S2000x300) origin2, View.ld_unit_zero (S := S2000x1) origin2, View.ld_unit_zero (S := S1x300) origin2,
    View.ld_unit_zero (S := S300x300) origin2]
  obtain ⟨e00, e01, e10, e11, e20, e21, e30, e31, e40, e41, e50, e51⟩ := proj2_index t
  funext j
  refine (proj2Block_apply hpay (iblk1 V c 0 t) (iblk1 V c 1 t) (iblk1 V c 2 t) (iblk1 V c 3 t) (iblk1 V c 4 t) j).trans ?_
  refine proj2_of_reads (V c main_v12) (V c main_v22) (V c main_v11) (V c main_v23) (V c main_arg4) (((cfg1.win 5).blk t).view.emb j)
    (fun g => ((cfg1.win 0).blk t).view.emb (ix2 (j 0) g)) (fun g => ((cfg1.win 1).blk t).view.emb (ix2 (j 0) g))
    (((cfg1.win 2).blk t).view.emb (ix2 (j 0) (0 : Fin 1))) (fun g => ((cfg1.win 3).blk t).view.emb (ix2 (0 : Fin 1) g))
    (fun g => ((cfg1.win 4).blk t).view.emb (ix2 g (j 1))) (fun g => ?_) (fun g => ?_) ?_ (fun g => ?_) (fun g => ?_)
  · funext a; apply Fin.ext
    match a with
    | ⟨0, _⟩ => show win1_0.index t (0 : Fin 2) * 2000 + 1 * (j 0).val = win1_5.index t (0 : Fin 2) * 2000 + 1 * (j 0).val; omega
    | ⟨1, _⟩ => show win1_0.index t (1 : Fin 2) * 300 + 1 * g.val = g.val; omega
  · funext a; apply Fin.ext
    match a with
    | ⟨0, _⟩ => show win1_1.index t (0 : Fin 2) * 2000 + 1 * (j 0).val = win1_5.index t (0 : Fin 2) * 2000 + 1 * (j 0).val; omega
    | ⟨1, _⟩ => show win1_1.index t (1 : Fin 2) * 300 + 1 * g.val = g.val; omega
  · funext a; apply Fin.ext
    match a with
    | ⟨0, _⟩ => show win1_2.index t (0 : Fin 2) * 2000 + 1 * (j 0).val = win1_5.index t (0 : Fin 2) * 2000 + 1 * (j 0).val; omega
    | ⟨1, _⟩ => show win1_2.index t (1 : Fin 2) * 1 + 1 * 0 = 0; omega
  · funext a; apply Fin.ext
    match a with
    | ⟨0, _⟩ => show win1_3.index t (0 : Fin 2) * 1 + 1 * 0 = 0; omega
    | ⟨1, _⟩ => show win1_3.index t (1 : Fin 2) * 300 + 1 * g.val = g.val; omega
  · funext a; apply Fin.ext
    match a with
    | ⟨0, _⟩ => show win1_4.index t (0 : Fin 2) * 300 + 1 * g.val = g.val; omega
    | ⟨1, _⟩ => show win1_4.index t (1 : Fin 2) * 300 + 1 * (j 1).val = win1_5.index t (1 : Fin 2) * 300 + 1 * (j 1).val; omega

/-- An index of the result array is in point `t`'s block iff each coordinate is in the block's range on its axis. -/
theorem proj2_mem_block (t : Fin cfg1.N) (i : S50000x300.Idx) :
    i ∈ ((cfg1.win 5).blk t).view.set ↔ ∀ a : Fin 2, win1_5.index t a * S2000x300.size a ≤ (i a).val ∧ (i a).val < win1_5.index t a * S2000x300.size a + S2000x300.size a := by
  show i ∈ ((View.whole main_v24).slice (win1_5.rect t)).set ↔ _
  rw [View.set_slice_whole, Rect.mem_set_unit]
  exact Iff.rfl

/-- Row `r` lies in the block of point `r / 2000`: the 25 blocks of 2000 rows cover the 50000 rows. -/
theorem proj2_cover (i : S50000x300.Idx) :
    ∃ t : Fin cfg1.N, (cfg1.win 5).flush t = true ∧ i ∈ ((cfg1.win 5).blk t).view.set := by
  have hi0 : (i 0).val < 50000 := (i 0).isLt
  have hi1 : (i 1).val < 300 := (i 1).isLt
  have hN : cfg1.N = 25 := N_1
  let t : Fin cfg1.N := ⟨(i 0).val / 2000, by rw [hN]; omega⟩
  obtain ⟨-, -, -, -, -, -, -, -, -, -, e50, e51⟩ := proj2_index t
  have ht : t.val = (i 0).val / 2000 := rfl
  refine ⟨t, flush1_5 t, ?_⟩
  rw [proj2_mem_block]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 300 ≤ (i 1).val ∧ (i 1).val < win1_5.index t (1 : Fin 2) * 300 + 300; omega

/-- Region 1 leaves in its result array the second projection of the arrays it finds, given the body's reading. -/
theorem final1_of
    (hpay : ∀ (x0 x1 : Vec Ideal S2000x300 .f32) (x2 : Vec Ideal S2000x1 .f32) (x3 : Vec Ideal S1x300 .f32) (x4 : Vec Ideal S300x300 .f32)
      (p : Fin 2000) (q : Fin 300),
      k1_pay1 x0 x1 x2 x3 x4 (ix2 p q) = ∑ g : Fin 300,
        (x2 (ix2 p (0 : Fin 1)) * ((x2 (ix2 p (0 : Fin 1)) * (x1 (ix2 p g) + x0 (ix2 p g))) + x3 (ix2 (0 : Fin 1) g))) * x4 (ix2 g q))
    (c : Dev nD) :
    (Cert.KernelIdeal.Gen.dat1 (F := Ideal) V c).arrAt 5 cfg1.N
      = Cert.Gcn.proj2 (V c main_v12) (V c main_v22) (V c main_v11) (V c main_v23) (V c main_arg4) :=
  (dat1 (F := Ideal) V c).arrAt_eq_of_cover 5 _ (fun t _ => proj2_flushed V hpay c t) proj2_cover

/-! ## Region 2: the last layer's combination -/

/-- The body's result at an entry of its block: the row's `d` times the sum of the two row blocks' entries,
    plus the bias of the column. -/
theorem combineBlock_apply (x0 x1 : Vec Ideal S2000x300 .f32) (x2 : Vec Ideal S2000x1 .f32) (x3 : Vec Ideal S1x300 .f32)
    (j : S2000x300.Idx) :
    k2_pay1 x0 x1 x2 x3 j = x2 (ix2 (j 0) (0 : Fin 1)) * (x1 j + x0 j) + x3 (ix2 (0 : Fin 1) (j 1)) := by
  obtain ⟨p, q, rfl⟩ : ∃ (p : Fin 2000) (q : Fin 300), j = ix2 p q := ⟨j 0, j 1, eq_ix2 j⟩
  unfold k2_pay1
  simp only [shapeCast_self, addf_apply, mulf_apply]
  rw [broadcastTo_a1_ab_apply, broadcastTo_1b_ab_apply]

/-- The combination at an index, from reads of its four arrays at indices known only up to equations. -/
theorem combine_of_reads (hs seg : FVec Ideal S50000x300 .f32) (d : FVec Ideal S50000x1 .f32) (b : FVec Ideal S1x300 .f32)
    (i0 i1 i : S50000x300.Idx) (i2 : S50000x1.Idx) (i3 : S1x300.Idx)
    (h0 : i0 = i) (h1 : i1 = i) (h2 : i2 = ix2 (Cert.Gcn.row i) (0 : Fin 1)) (h3 : i3 = ix2 (0 : Fin 1) (Cert.Gcn.col i)) :
    d i2 * (seg i1 + hs i0) + b i3 = Cert.Gcn.combine hs seg d b i := by
  subst h0 h1 h2 h3; rfl

/-- The index maps of region 2 over its 25 points: every row window's block index is the point, the bias
    window's is the origin. -/
theorem combine_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- What point `t` writes back is block `t` of the combination of the arrays as the region finds them. -/
theorem combine_flushed (c : Dev nD) (t : Fin cfg2.N) :
    (dat2 (F := Ideal) V c).flushed 4 t = ((cfg2.win 4).blk t).view.read (Elt Ideal)
      (Cert.Gcn.combine (V c main_v24) (V c main_v34) (V c main_v11) (V c main_v35)) := by
  show (cfg2.win 4).cut (grid2.coords t) ((dat2 (F := Ideal) V c).after 4 t) = _
  rw [after2_4]
  unfold out2_4
  rw [View.canon_unit_zero origin2]
  simp only [View.ld_unit_zero (S := S2000x300) origin2, View.ld_unit_zero (S := S2000x1) origin2, View.ld_unit_zero (S := S1x300) origin2]
  obtain ⟨e00, e01, e10, e11, e20, e21, e30, e31, e40, e41⟩ := combine_index t
  funext j
  refine (combineBlock_apply (iblk2 V c 0 t) (iblk2 V c 1 t) (iblk2 V c 2 t) (iblk2 V c 3 t) j).trans ?_
  refine combine_of_reads (V c main_v24) (V c main_v34) (V c main_v11) (V c main_v35)
    (((cfg2.win 0).blk t).view.emb j) (((cfg2.win 1).blk t).view.emb j) (((cfg2.win 4).blk t).view.emb j)
    (((cfg2.win 2).blk t).view.emb (ix2 (j 0) (0 : Fin 1))) (((cfg2.win 3).blk t).view.emb (ix2 (0 : Fin 1) (j 1))) ?_ ?_ ?_ ?_
  · funext a; apply Fin.ext
    match a with
    | ⟨0, _⟩ => show win2_0.index t (0 : Fin 2) * 2000 + 1 * (j 0).val = win2_4.index t (0 : Fin 2) * 2000 + 1 * (j 0).val; omega
    | ⟨1, _⟩ => show win2_0.index t (1 : Fin 2) * 300 + 1 * (j 1).val = win2_4.index t (1 : Fin 2) * 300 + 1 * (j 1).val; omega
  · funext a; apply Fin.ext
    match a with
    | ⟨0, _⟩ => show win2_1.index t (0 : Fin 2) * 2000 + 1 * (j 0).val = win2_4.index t (0 : Fin 2) * 2000 + 1 * (j 0).val; omega
    | ⟨1, _⟩ => show win2_1.index t (1 : Fin 2) * 300 + 1 * (j 1).val = win2_4.index t (1 : Fin 2) * 300 + 1 * (j 1).val; omega
  · funext a; apply Fin.ext
    match a with
    | ⟨0, _⟩ => show win2_2.index t (0 : Fin 2) * 2000 + 1 * (j 0).val = win2_4.index t (0 : Fin 2) * 2000 + 1 * (j 0).val; omega
    | ⟨1, _⟩ => show win2_2.index t (1 : Fin 2) * 1 + 1 * 0 = 0; omega
  · funext a; apply Fin.ext
    match a with
    | ⟨0, _⟩ => show win2_3.index t (0 : Fin 2) * 1 + 1 * 0 = 0; omega
    | ⟨1, _⟩ => show win2_3.index t (1 : Fin 2) * 300 + 1 * (j 1).val = win2_4.index t (1 : Fin 2) * 300 + 1 * (j 1).val; omega

/-- An index of the result array is in point `t`'s block iff each coordinate is in the block's range on its axis. -/
theorem combine_mem_block (t : Fin cfg2.N) (i : S50000x300.Idx) :
    i ∈ ((cfg2.win 4).blk t).view.set ↔ ∀ a : Fin 2, win2_4.index t a * S2000x300.size a ≤ (i a).val ∧ (i a).val < win2_4.index t a * S2000x300.size a + S2000x300.size a := by
  show i ∈ ((View.whole main_v36).slice (win2_4.rect t)).set ↔ _
  rw [View.set_slice_whole, Rect.mem_set_unit]
  exact Iff.rfl

/-- Row `r` lies in the block of point `r / 2000`: the 25 blocks of 2000 rows cover the 50000 rows. -/
theorem combine_cover (i : S50000x300.Idx) :
    ∃ t : Fin cfg2.N, (cfg2.win 4).flush t = true ∧ i ∈ ((cfg2.win 4).blk t).view.set := by
  have hi0 : (i 0).val < 50000 := (i 0).isLt
  have hi1 : (i 1).val < 300 := (i 1).isLt
  have hN : cfg2.N = 25 := N_2
  let t : Fin cfg2.N := ⟨(i 0).val / 2000, by rw [hN]; omega⟩
  obtain ⟨-, -, -, -, -, -, -, -, e40, e41⟩ := combine_index t
  have ht : t.val = (i 0).val / 2000 := rfl
  refine ⟨t, flush2_4 t, ?_⟩
  rw [combine_mem_block]
  intro a
  match a with
  | ⟨0, _⟩ => show win2_4.index t (0 : Fin 2) * 2000 ≤ (i 0).val ∧ (i 0).val < win2_4.index t (0 : Fin 2) * 2000 + 2000; omega
  | ⟨1, _⟩ => show win2_4.index t (1 : Fin 2) * 300 ≤ (i 1).val ∧ (i 1).val < win2_4.index t (1 : Fin 2) * 300 + 300; omega

/-- Region 2 leaves in its result array the combination of the arrays it finds. -/
theorem final2 (c : Dev nD) :
    (Cert.KernelIdeal.Gen.dat2 (F := Ideal) V c).arrAt 4 cfg2.N
      = Cert.Gcn.combine (V c main_v24) (V c main_v34) (V c main_v11) (V c main_v35) :=
  (dat2 (F := Ideal) V c).arrAt_eq_of_cover 4 _ (fun t _ => combine_flushed V c t) combine_cover

end Cert.Gcn.Regions

end
-- ==== Proof.Payload0.lean ====
/-
  The kernel bodies' arithmetic, read at one entry of a 2000-row block.

  A `[a, 1]` column broadcast along the rows reads its row's one entry, a `[1, b]` row broadcast down the
  columns reads its column's one entry, a shape cast of a shape to itself changes nothing and, on
  extended reals, a change of float format is the identity.  So the pointwise body of the last kernel is
  `d p · (s (p, q) + h (p, q)) + b q`, and the first kernel's body, a matrix product into a zero
  accumulator, is the sum over the contracted coordinate `g` of `(x (p, g) · d p) · w (g, q)`.
-/
import proofs.«153010_j17703855194320_2_alg».proof.Proof.Spec
import proofs.«153010_j17703855194320_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.Gcn.Payload

open Idealize.ShloMosaic Idealize.ShloMosaic.ValueIdx Cert.KernelIdeal Cert.KernelIdeal.Gen
open scoped BigOperators

/-! ### The two broadcasts -/

/-- An `[a, 1]` column broadcast to `[a, b]` reads, at `(p, c)`, the column's entry of row `p`. -/
theorem bcast_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, b]` row broadcast to `[a, b]` reads, at `(p, c)`, the row's entry of column `c`. -/
theorem bcast_row_apply {α : Type} {a b : ℕ} (v : (⟨2, ![1, b]⟩ : Shape).Idx → α)
    (h : (⟨2, ![1, b]⟩ : Shape).Broadcasts ⟨2, ![a, b]⟩) (p : Fin a) (c : Fin b) :
    broadcastTo ⟨2, ![a, b]⟩ v h (ix2 p c) = v (ix2 (0 : Fin 1) c) :=
  broadcastTo_1b_ab_apply v h p c

variable [Cert.KernelIdeal.Facts]

/-! ### The last kernel's pointwise body -/

/-- `d p · (s (p, q) + h (p, q)) + b q`. -/
theorem pay2_apply (x0 x1 : Vec Ideal S2000x300 .f32) (x2 : Vec Ideal S2000x1 .f32) (x3 : Vec Ideal S1x300 .f32)
    (p : Fin 2000) (q : Fin 300) :
    k2_pay1 x0 x1 x2 x3 (ix2 p q)
      = x2 (ix2 p (0 : Fin 1)) * (x1 (ix2 p q) + x0 (ix2 p q)) + x3 (ix2 (0 : Fin 1) q) := by
  unfold k2_pay1
  simp only [shapeCast_self]
  rw [addf_apply, mulf_apply, addf_apply, bcast_col_apply, bcast_row_apply]

/-! ### The first kernel's body: scaled rows times the weights -/

/-- The left operand is read at the result's row … -/
theorem lhs0_row (i : S2000x300.Idx) (k : dot_S2000x128_S128x300_S2000x300_1_0_0_1_n_n.contr.Idx) :
    (dot_S2000x128_S128x300_S2000x300_1_0_0_1_n_n.lhsIdx i k 0).val = (i 0).val := by
  unfold DotDims.lhsIdx
  rw [dif_neg (show ¬(0 : Fin S2000x128.rank) ∈ dot_S2000x128_S128x300_S2000x300_1_0_0_1_n_n.lhsBatch by decide),
    dif_pos (show (0 : Fin S2000x128.rank) ∈ dot_S2000x128_S128x300_S2000x300_1_0_0_1_n_n.lhsNonContracting by decide)]
  rfl

/-- … and the contracted coordinate; -/
theorem lhs0_contr (i : S2000x300.Idx) (k : dot_S2000x128_S128x300_S2000x300_1_0_0_1_n_n.contr.Idx) :
    (dot_S2000x128_S128x300_S2000x300_1_0_0_1_n_n.lhsIdx i k 1).val = (k ⟨0, by decide⟩).val :=
  dot_S2000x128_S128x300_S2000x300_1_0_0_1_n_n.lhsIdx_val_of_single rfl i k

/-- the right operand at the contracted coordinate … -/
theorem rhs0_contr (i : S2000x300.Idx) (k : dot_S2000x128_S128x300_S2000x300_1_0_0_1_n_n.contr.Idx) :
    (dot_S2000x128_S128x300_S2000x300_1_0_0_1_n_n.rhsIdx i k 0).val = (k ⟨0, by decide⟩).val :=
  dot_S2000x128_S128x300_S2000x300_1_0_0_1_n_n.rhsIdx_val_of_single rfl i k

/-- … and the result's column. -/
theorem rhs0_col (i : S2000x300.Idx) (k : dot_S2000x128_S128x300_S2000x300_1_0_0_1_n_n.contr.Idx) :
    (dot_S2000x128_S128x300_S2000x300_1_0_0_1_n_n.rhsIdx i k 1).val = (i 1).val := by
  unfold DotDims.rhsIdx
  rw [dif_neg (show ¬(1 : Fin S128x300.rank) ∈ dot_S2000x128_S128x300_S2000x300_1_0_0_1_n_n.rhsBatch by decide),
    dif_pos (show (1 : Fin S128x300.rank) ∈ dot_S2000x128_S128x300_S2000x300_1_0_0_1_n_n.rhsNonContracting by decide)]
  rfl

/-- `∑ g, (x (p, g) · d p) · w (g, q)`. -/
theorem pay0_apply (x0 : Vec Ideal S2000x128 .f32) (x1 : Vec Ideal S2000x1 .f32) (x2 : Vec Ideal S128x300 .f32)
    (p : Fin 2000) (q : Fin 300) :
    k0_pay1 x0 x1 x2 (ix2 p q) = ∑ g : Fin 128, (x0 (ix2 p g) * x1 (ix2 p (0 : Fin 1))) * x2 (ix2 g q) := by
  unfold k0_pay1
  simp only [shapeCast_self]
  refine (Ideal.matmul_constant_zero_apply dot_S2000x128_S128x300_S2000x300_1_0_0_1_n_n none _ _ (ix2 p q)).trans ?_
  rw [← Equiv.sum_comp (contrEquiv1 dot_S2000x128_S128x300_S2000x300_1_0_0_1_n_n 128 rfl rfl).symm]
  refine Finset.sum_congr rfl fun g _ => ?_
  have hg := contrEquiv1_symm_val dot_S2000x128_S128x300_S2000x300_1_0_0_1_n_n 128 rfl rfl g
  have el : dot_S2000x128_S128x300_S2000x300_1_0_0_1_n_n.lhsIdx (ix2 p q)
      ((contrEquiv1 dot_S2000x128_S128x300_S2000x300_1_0_0_1_n_n 128 rfl rfl).symm g) = ix2 p g :=
    funext fun a => Fin.ext (by
      match a with
      | ⟨0, _⟩ => exact lhs0_row _ _
      | ⟨1, _⟩ => exact (lhs0_contr _ _).trans hg)
  have er : dot_S2000x128_S128x300_S2000x300_1_0_0_1_n_n.rhsIdx (ix2 p q)
      ((contrEquiv1 dot_S2000x128_S128x300_S2000x300_1_0_0_1_n_n 128 rfl rfl).symm g) = ix2 g q :=
    funext fun a => Fin.ext (by
      match a with
      | ⟨0, _⟩ => exact (rhs0_contr _ _).trans hg
      | ⟨1, _⟩ => exact rhs0_col _ _)
  rw [el, er, truncf_apply, truncf_apply, mulf_apply, bcast_col_apply]

end Cert.Gcn.Payload

end
-- ==== Proof.Payload1.lean ====
/-
  The second kernel's arithmetic at one entry of a block of 2000 rows, over the extended reals.

  With `hs` and `seg` the block's rows of the projected features and of their sums over incoming edges, `d` the
  column of row weights, `b` the bias row and `W` the weights, entry `(p, q)` of what the kernel stores is
    ∑ g, (d p · ((d p · (seg p g + hs p g)) + b g)) · W g q:
  the two roundings to a narrower format are the identity at the extended reals, a reshape to the same shape is
  the identity, a column broadcast along a row reads its row's entry, a row broadcast down the rows reads its
  column's entry, and the product into the zero array is the bare sum over the one contracted axis.
-/
import proofs.«153010_j17703855194320_2_alg».proof.Proof.Spec
import proofs.«153010_j17703855194320_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.Gcn.Payload

open Idealize.ShloMosaic Idealize.ShloMosaic.ValueIdx Cert.KernelIdeal Cert.KernelIdeal.Gen
open scoped BigOperators

/-! ## The two broadcasts of a block, read at an entry -/

section Broadcasts
variable {α : Type}

/-- A column of 2000 entries broadcast along rows of any length reads, at `(p, g)`, the column at `p`. -/
theorem bcastCol_apply {N : Nat} (v : (⟨2, ![2000, 1]⟩ : Shape).Idx → α)
    (h : (⟨2, ![2000, 1]⟩ : Shape).Broadcasts ⟨2, ![2000, N]⟩) (p : Fin 2000) (g : Fin N) :
    broadcastTo ⟨2, ![2000, N]⟩ v h (ix2 p g) = v (ix2 p (0 : Fin 1)) :=
  broadcastTo_apply v h (ix2 p g) (ix2 p (0 : Fin 1)) (fun a => match a with
    | ⟨0, _⟩ => by show p.val = if (2000 : Nat) = 1 then 0 else p.val; rw [if_neg (by decide)]
    | ⟨1, _⟩ => by show 0 = if (1 : Nat) = 1 then 0 else g.val; rw [if_pos rfl])

/-- A row of 300 entries broadcast down 2000 rows reads, at `(p, g)`, the row at `g`. -/
theorem bcastRow_apply (v : (⟨2, ![1, 300]⟩ : Shape).Idx → α)
    (h : (⟨2, ![1, 300]⟩ : Shape).Broadcasts ⟨2, ![2000, 300]⟩) (p : Fin 2000) (g : Fin 300) :
    broadcastTo ⟨2, ![2000, 300]⟩ v h (ix2 p g) = v (ix2 (0 : Fin 1) g) :=
  broadcastTo_apply v h (ix2 p g) (ix2 (0 : Fin 1) g) (fun a => match a with
    | ⟨0, _⟩ => by show 0 = if (1 : Nat) = 1 then 0 else p.val; rw [if_pos rfl]
    | ⟨1, _⟩ => by show g.val = if (300 : Nat) = 1 then 0 else g.val; rw [if_neg (by decide)])

end Broadcasts

variable [Cert.KernelIdeal.Facts]
open Cert.KernelIdeal.Facts₀ Cert.KernelIdeal.Facts

/-! ## The product's operand entries: row and contracted coordinate on the left, contracted coordinate and column on the right -/

theorem lhs_0 (i : S2000x300.Idx) (k : dot_S2000x300_S300x300_S2000x300_1_0_0_1_n_n.contr.Idx) : (dot_S2000x300_S300x300_S2000x300_1_0_0_1_n_n.lhsIdx i k 0).val = (i 0).val := by
  unfold DotDims.lhsIdx
  rw [dif_neg (show ¬(0 : Fin S2000x300.rank) ∈ dot_S2000x300_S300x300_S2000x300_1_0_0_1_n_n.lhsBatch by decide),
    dif_pos (show (0 : Fin S2000x300.rank) ∈ dot_S2000x300_S300x300_S2000x300_1_0_0_1_n_n.lhsNonContracting by decide)]
  rfl

theorem lhs_1 (i : S2000x300.Idx) (k : dot_S2000x300_S300x300_S2000x300_1_0_0_1_n_n.contr.Idx) : (dot_S2000x300_S300x300_S2000x300_1_0_0_1_n_n.lhsIdx i k 1).val = (k ⟨0, by decide⟩).val :=
  dot_S2000x300_S300x300_S2000x300_1_0_0_1_n_n.lhsIdx_val_of_single rfl i k

theorem rhs_0 (i : S2000x300.Idx) (k : dot_S2000x300_S300x300_S2000x300_1_0_0_1_n_n.contr.Idx) : (dot_S2000x300_S300x300_S2000x300_1_0_0_1_n_n.rhsIdx i k 0).val = (k ⟨0, by decide⟩).val :=
  dot_S2000x300_S300x300_S2000x300_1_0_0_1_n_n.rhsIdx_val_of_single rfl i k

theorem rhs_1 (i : S2000x300.Idx) (k : dot_S2000x300_S300x300_S2000x300_1_0_0_1_n_n.contr.Idx) : (dot_S2000x300_S300x300_S2000x300_1_0_0_1_n_n.rhsIdx i k 1).val = (i 1).val := by
  unfold DotDims.rhsIdx
  rw [dif_neg (show ¬(1 : Fin S300x300.rank) ∈ dot_S2000x300_S300x300_S2000x300_1_0_0_1_n_n.rhsBatch by decide),
    dif_pos (show (1 : Fin S300x300.rank) ∈ dot_S2000x300_S300x300_S2000x300_1_0_0_1_n_n.rhsNonContracting by decide)]
  rfl

/-! ## The payload at an entry -/

/-- Entry `(p, q)` of the second kernel's stored block. -/
theorem pay1_apply (x0 x1 : Vec Ideal S2000x300 .f32) (x2 : Vec Ideal S2000x1 .f32) (x3 : Vec Ideal S1x300 .f32)
    (x4 : Vec Ideal S300x300 .f32) (p : Fin 2000) (q : Fin 300) :
    k1_pay1 x0 x1 x2 x3 x4 (ix2 p q)
      = ∑ g : Fin 300, (x2 (ix2 p (0 : Fin 1)) * ((x2 (ix2 p (0 : Fin 1)) * (x1 (ix2 p g) + x0 (ix2 p g))) + x3 (ix2 (0 : Fin 1) g)))
          * x4 (ix2 g q) := by
  unfold k1_pay1
  simp only [shapeCast_self]
  refine (Ideal.matmul_constant_zero_apply dot_S2000x300_S300x300_S2000x300_1_0_0_1_n_n none _ _ (ix2 p q)).trans ?_
  rw [← Equiv.sum_comp (contrEquiv1 dot_S2000x300_S300x300_S2000x300_1_0_0_1_n_n 300 rfl rfl).symm]
  refine Finset.sum_congr rfl fun g _ => ?_
  have hk := contrEquiv1_symm_val dot_S2000x300_S300x300_S2000x300_1_0_0_1_n_n 300 rfl rfl g
  have el : dot_S2000x300_S300x300_S2000x300_1_0_0_1_n_n.lhsIdx (ix2 p q) ((contrEquiv1 dot_S2000x300_S300x300_S2000x300_1_0_0_1_n_n 300 rfl rfl).symm g) = ix2 p g :=
    funext fun a => Fin.ext (by
      match a with
      | ⟨0, _⟩ => exact lhs_0 _ _
      | ⟨1, _⟩ => exact (lhs_1 _ _).trans hk)
  have er : dot_S2000x300_S300x300_S2000x300_1_0_0_1_n_n.rhsIdx (ix2 p q) ((contrEquiv1 dot_S2000x300_S300x300_S2000x300_1_0_0_1_n_n 300 rfl rfl).symm g) = ix2 g q :=
    funext fun a => Fin.ext (by
      match a with
      | ⟨0, _⟩ => exact (rhs_0 _ _).trans hk
      | ⟨1, _⟩ => exact rhs_1 _ _)
  rw [el, er]
  rw [truncf_apply, truncf_apply, mulf_apply, addf_apply, mulf_apply, addf_apply, bcastCol_apply, bcastRow_apply]

end Cert.Gcn.Payload

end
-- ==== Proof.RegionsAll.lean ====
/-
  The first two kernels' output arrays as whole-array functions of their input arrays: the blocks-to-array theorems,
  given each body's arithmetic at one entry of a block.
-/
import proofs.«153010_j17703855194320_2_alg».proof.Proof.Regions
import proofs.«153010_j17703855194320_2_alg».proof.Proof.Payload0
import proofs.«153010_j17703855194320_2_alg».proof.Proof.Payload1

noncomputable section

namespace Cert.Gcn.Regions

open Idealize.ShloMosaic Idealize.ShloMosaic.TcCoe Idealize.SL.Sem Cert.KernelIdeal Cert.KernelIdeal.Gen

/-- The first kernel's output array: the rows of the features scaled by the weights' column, times the weights. -/
theorem final0 (V : (c : Dev nD) → (b : Ref sig .tc) → Buf (Elt Ideal) ((c : Thread nD τ).loc b)) (c : Dev nD) :
    (Cert.KernelIdeal.Gen.dat0 (F := Ideal) V c).arrAt 3 cfg0.N = Cert.Gcn.proj1 (V c main_arg0) (V c main_v11) (V c main_arg2) :=
  final0_of V (fun x0 x1 x2 p q => Cert.Gcn.Payload.pay0_apply x0 x1 x2 p q) c

/-- The second kernel's output array: the first layer's combination, scaled again, times the second weights. -/
theorem final1 (V : (c : Dev nD) → (b : Ref sig .tc) → Buf (Elt Ideal) ((c : Thread nD τ).loc b)) (c : Dev nD) :
    (Cert.KernelIdeal.Gen.dat1 (F := Ideal) V c).arrAt 5 cfg1.N
      = Cert.Gcn.proj2 (V c main_v12) (V c main_v22) (V c main_v11) (V c main_v23) (V c main_arg4) :=
  final1_of V (fun x0 x1 x2 x3 x4 p q => Cert.Gcn.Payload.pay1_apply x0 x1 x2 x3 x4 p q) c

end Cert.Gcn.Regions

end
-- ==== Proof.RefSpec.lean ====
/-
  The reference's result as ONE function of the argument arrays, factored by layer.

  One layer of the reference, for a matrix product `H = X · W`, the edge array and a bias `b`
  (`d`, `src`, `dst` as in the kernel's specification; `dst'` is `dst` wrapped as `src` is):
    post H r k = (∑ over edges e with dst e = r, H (src e) k · (d (src e) · d (dst' e))) + H r k · (d r · d r) + b k.
  The whole reference is  post (post (V · W1) b1 · W2) b2.
-/
import proofs.«153010_j17703855194320_2_alg».proof.Proof.Gen.ReferenceIdeal.Read

noncomputable section

namespace Cert.Gcn.Ref

open Idealize.ShloMosaic Cert.ReferenceIdeal

variable [Cert.ReferenceIdeal.Facts]
open Cert.ReferenceIdeal.Facts₀ Cert.ReferenceIdeal.Facts

/-- The edges' source rows: row 0 of the edge array. -/
def srcRaw (e : IVec S2x800000 32) : IVec S800000 32 :=
  shapeCast _ (extractStridedSlice S1x800000 ![0, 0] e slices_S2x800000_S1x800000_0_0) shapeCasts_S1x800000_S800000

/-- The edges' target rows: row 1 of the edge array. -/
def dstRaw (e : IVec S2x800000 32) : IVec S800000 32 :=
  shapeCast _ (extractStridedSlice S1x800000 ![1, 0] e slices_S2x800000_S1x800000_1_0) shapeCasts_S1x800000_S800000

/-- A row index wrapped: a negative one counts from the end. -/
def wrap (v : IVec S800000 32) : IVec S800000 32 :=
  select (cmpi .slt v (broadcastInDim S800000 ![] bcast_S_S800000 (constantI S_ 32 0#32)))
    (addi v (broadcastInDim S800000 ![] bcast_S_S800000 (constantI S_ 32 50000#32))) v

/-- A vector of row indices as a column of start indices. -/
def colOf (v : IVec S800000 32) : IVec S800000x1 32 :=
  broadcastInDim S800000x1 ![0] bcast_S800000_S800000x1_0 v

/-- `d`: the inverse square root of one plus each row's count of incoming edges. -/
def dinv (e : IVec S2x800000 32) : FVec Ideal S50000 .f32 :=
  Host.rsqrt (addf
    (Host.scatterAdd scatter_S50000_S800000x1_S800000_n_0_0_1
      (broadcastInDim S50000 ![] bcast_S_S50000 (constant S_ .f32 0x00000000#32)) (colOf (dstRaw e))
      (broadcastInDim S800000 ![] bcast_S_S800000 (constant S_ .f32 0x3F800000#32)))
    (broadcastInDim S50000 ![] bcast_S_S50000 (constant S_ .f32 0x3F800000#32)))

/-- The per-edge weight `d (src e) · d (dst' e)`. -/
def norm (e : IVec S2x800000 32) : FVec Ideal S800000 .f32 :=
  mulf (Host.gather gather_S50000_S800000x1_S800000_n_0_n_n_0_1_1 (dinv e) (colOf (wrap (srcRaw e))))
    (Host.gather gather_S50000_S800000x1_S800000_n_0_n_n_0_1_1 (dinv e) (colOf (wrap (dstRaw e))))

/-- One layer after its matrix product `H`: the weighted edge sum, the self term, the bias. -/
def post (H : FVec Ideal S50000x300 .f32) (e : IVec S2x800000 32) (b : FVec Ideal S300 .f32) : FVec Ideal S50000x300 .f32 :=
  addf
    (addf
      (Host.scatterAdd scatter_S50000x300_S800000x1_S800000x300_1_0_0_1
        (broadcastInDim S50000x300 ![] bcast_S_S50000x300 (constant S_ .f32 0x00000000#32)) (colOf (dstRaw e))
        (mulf (Host.gather gather_S50000x300_S800000x1_S800000x300_1_0_n_n_0_1_1300 H (colOf (wrap (srcRaw e))))
          (broadcastInDim S800000x300 ![0, 1] bcast_S800000x1_S800000x300_0_1
            (broadcastInDim S800000x1 ![0] bcast_S800000_S800000x1_0 (norm e)))))
      (mulf H (broadcastInDim S50000x300 ![0, 1] bcast_S50000x1_S50000x300_0_1
        (broadcastInDim S50000x1 ![0] bcast_S50000_S50000x1_0 (mulf (dinv e) (dinv e))))))
    (broadcastInDim S50000x300 ![0, 1] bcast_S1x300_S50000x300_0_1 (broadcastInDim S1x300 ![1] bcast_S300_S1x300_1 b))

/-- The first layer's matrix product. -/
def dot1 (X : FVec Ideal S50000x128 .f32) (W : FVec Ideal S128x300 .f32) : FVec Ideal S50000x300 .f32 :=
  Host.dotGeneral dot_S50000x128_S128x300_S50000x300_1_0_0_1_n_n none X W

/-- The second layer's matrix product. -/
def dot2 (X : FVec Ideal S50000x300 .f32) (W : FVec Ideal S300x300 .f32) : FVec Ideal S50000x300 .f32 :=
  Host.dotGeneral dot_S50000x300_S300x300_S50000x300_1_0_0_1_n_n none X W

/-- The reference's result. -/
def out (V : FVec Ideal S50000x128 .f32) (e : IVec S2x800000 32) (W1 : FVec Ideal S128x300 .f32) (b1 : FVec Ideal S300 .f32)
    (W2 : FVec Ideal S300x300 .f32) (b2 : FVec Ideal S300 .f32) : FVec Ideal S50000x300 .f32 :=
  post (dot2 (post (dot1 V W1) e b1) W2) e b2

/-- The reference's last stage, read off its run, is this function: the stages unfold to the same operations. -/
theorem val_eq_out (x0 : FVec Ideal S50000x128 .f32) (x1 : IVec S2x800000 32) (x2 : FVec Ideal S128x300 .f32)
    (x3 : FVec Ideal S300 .f32) (x4 : FVec Ideal S300x300 .f32) (x5 : FVec Ideal S300 .f32) :
    Cert.ReferenceIdeal.Read.val_main_v91 (F := Ideal) x0 x1 x2 x3 x4 x5 = out x0 x1 x2 x3 x4 x5 := rfl

end Cert.Gcn.Ref

end
-- ==== Proof.Algebra.lean ====
/-
  The algebra that joins the two programs, on the extended reals, for entries that are real numbers.

  On the extended reals multiplication does not distribute over addition at the infinities, so every law here is
  stated for coerced reals and proved by pushing the coercion outwards (a product, a sum and a finite sum of coerced
  reals are the coerced product, sum and finite sum) and then arguing in the field of real numbers.
-/
import Idealize.ShloMosaic.PureOps.Ideal
import Mathlib.Tactic.Ring

noncomputable section

open scoped BigOperators

namespace Cert.Gcn.Algebra

/-- A finite sum of coerced reals is the coerced sum. -/
theorem coe_sum {β : Type*} (T : Finset β) (f : β → ℝ) : (∑ j ∈ T, ((f j : ℝ) : EReal)) = ((∑ j ∈ T, f j : ℝ) : EReal) := by
  classical
  induction T using Finset.induction_on with
  | empty => simp
  | insert a s ha ih => rw [Finset.sum_insert ha, Finset.sum_insert ha, ih, EReal.coe_add]

/-- A matrix product of real rows and columns is real. -/
theorem dot_real {γ : Type*} [Fintype γ] (x w : γ → ℝ) :
    (∑ g, ((x g : ℝ) : EReal) * ((w g : ℝ) : EReal)) = ((∑ g, x g * w g : ℝ) : EReal) := by
  simp only [← EReal.coe_mul]
  exact coe_sum _ _

/-- Scaling a row on the right before a matrix product scales the product: `∑ (x·d)·w = d · ∑ x·w`. -/
theorem scaled_dot_right {γ : Type*} [Fintype γ] (x w : γ → ℝ) (d : ℝ) :
    (∑ g, (((x g : ℝ) : EReal) * ((d : ℝ) : EReal)) * ((w g : ℝ) : EReal))
      = ((d : ℝ) : EReal) * ∑ g, ((x g : ℝ) : EReal) * ((w g : ℝ) : EReal) := by
  rw [dot_real]
  simp only [← EReal.coe_mul]
  rw [coe_sum]
  congr 1
  rw [Finset.mul_sum]
  exact Finset.sum_congr rfl fun g _ => by ring

/-- Scaling a row on the left before a matrix product scales the product: `∑ (d·x)·w = d · ∑ x·w`. -/
theorem scaled_dot_left {γ : Type*} [Fintype γ] (x w : γ → ℝ) (d : ℝ) :
    (∑ g, (((d : ℝ) : EReal) * ((x g : ℝ) : EReal)) * ((w g : ℝ) : EReal))
      = ((d : ℝ) : EReal) * ∑ g, ((x g : ℝ) : EReal) * ((w g : ℝ) : EReal) := by
  rw [dot_real]
  simp only [← EReal.coe_mul]
  rw [coe_sum]
  congr 1
  rw [Finset.mul_sum]
  exact Finset.sum_congr rfl fun g _ => by ring

/-- One layer at one entry. `T` is the set of edge updates landing on the entry, `h j` the projected feature the
    update `j` carries, `ds j` and `dd j` the weights of its source row and of its wrapped target row, `dr` the
    entry's own row's weight, `hi` the entry's own projected feature, `bk` the bias. When every update that lands
    on the entry has the entry's row as its wrapped target (`hdd`), scaling the sources first and the target last
    is weighting each edge by the product of the two weights. -/
theorem layer_entry {β : Type*} (T : Finset β) (h ds dd : β → ℝ) (dr hi bk : ℝ) (hdd : ∀ j ∈ T, dd j = dr) :
    ((dr : ℝ) : EReal) * (((0 : EReal) + ∑ j ∈ T, ((ds j : ℝ) : EReal) * ((h j : ℝ) : EReal)) + ((dr : ℝ) : EReal) * ((hi : ℝ) : EReal))
        + ((bk : ℝ) : EReal)
      = (((0 : EReal) + ∑ j ∈ T, ((h j : ℝ) : EReal) * (((ds j : ℝ) : EReal) * ((dd j : ℝ) : EReal)))
          + ((hi : ℝ) : EReal) * (((dr : ℝ) : EReal) * ((dr : ℝ) : EReal))) + ((bk : ℝ) : EReal) := by
  have e : (∑ j ∈ T, h j * (ds j * dd j)) = dr * ∑ j ∈ T, ds j * h j := by
    rw [Finset.mul_sum]
    exact Finset.sum_congr rfl fun j hj => by rw [hdd j hj]; ring
  simp only [← EReal.coe_mul, zero_add]
  rw [coe_sum, coe_sum]
  simp only [← EReal.coe_mul, ← EReal.coe_add]
  congr 1
  rw [e]; ring

/-- The reference's side of a layer at one entry is a real number. -/
theorem layer_entry_real {β : Type*} (T : Finset β) (h ds dd : β → ℝ) (dr hi bk : ℝ) :
    ∃ r : ℝ, (((0 : EReal) + ∑ j ∈ T, ((h j : ℝ) : EReal) * (((ds j : ℝ) : EReal) * ((dd j : ℝ) : EReal)))
          + ((hi : ℝ) : EReal) * (((dr : ℝ) : EReal) * ((dr : ℝ) : EReal))) + ((bk : ℝ) : EReal) = ((r : ℝ) : EReal) := by
  refine ⟨(∑ j ∈ T, h j * (ds j * dd j)) + hi * (dr * dr) + bk, ?_⟩
  simp only [← EReal.coe_mul, zero_add]
  rw [coe_sum]
  simp only [← EReal.coe_add]

end Cert.Gcn.Algebra

end
-- ==== Proof.Dots.lean ====
/-
  The reference's two matrix products read at an entry: entry (r, k) of `X · W` is `∑ g, X r g · W g k`.
-/
import proofs.«153010_j17703855194320_2_alg».proof.Proof.Spec
import proofs.«153010_j17703855194320_2_alg».proof.Proof.RefSpec

noncomputable section

open scoped BigOperators

namespace Cert.Gcn.Dots

open Idealize.ShloMosaic Idealize.ShloMosaic.ValueIdx Cert.ReferenceIdeal Cert.Gcn

variable [Cert.ReferenceIdeal.Facts]

/-- The first layer's product at an entry. -/
theorem dot1_apply (X : FVec Ideal S50000x128 .f32) (W : FVec Ideal S128x300 .f32) (i : S50000x300.Idx) :
    Ref.dot1 X W i = ∑ g : Fin 128, X (ix2 (row i) g) * W (ix2 g (col i)) := by
  refine (Cert.ReferenceIdeal.Read.val_main_v4_apply X W i).trans ?_
  refine Finset.sum_congr rfl fun k _ => ?_
  have el : Cert.ReferenceIdeal.Read.lidx_main_v4 i k = ix2 (row i) k :=
    funext fun a => by match a with | ⟨0, _⟩ => rfl | ⟨1, _⟩ => rfl
  have er : Cert.ReferenceIdeal.Read.ridx_main_v4 i k = ix2 k (col i) :=
    funext fun a => by match a with | ⟨0, _⟩ => rfl | ⟨1, _⟩ => rfl
  rw [el, er]

/-- The second layer's product at an entry: the contraction's one axis re-indexed by its coordinate. -/
theorem dot2_apply (X : FVec Ideal S50000x300 .f32) (W : FVec Ideal S300x300 .f32) (i : S50000x300.Idx) :
    Ref.dot2 X W i = ∑ g : Fin 300, X (ix2 (row i) g) * W (ix2 g (col i)) := by
  unfold Ref.dot2
  simp only [Host.dotGeneral]
  rw [Ideal.dotGeneral_apply, ← Equiv.sum_comp (ValueIdx.contrEquiv1 dot_S50000x300_S300x300_S50000x300_1_0_0_1_n_n 300 rfl rfl).symm]
  refine Finset.sum_congr rfl fun k _ => ?_
  have hk := ValueIdx.contrEquiv1_symm_val dot_S50000x300_S300x300_S50000x300_1_0_0_1_n_n 300 rfl rfl k
  have el : dot_S50000x300_S300x300_S50000x300_1_0_0_1_n_n.lhsIdx i ((ValueIdx.contrEquiv1 dot_S50000x300_S300x300_S50000x300_1_0_0_1_n_n 300 rfl rfl).symm k) = ix2 (row i) k := funext fun a => Fin.ext (by
    match a with
    | ⟨0, _⟩ => exact Cert.ReferenceIdeal.Read.lhs_main_v48_0 _ _
    | ⟨1, _⟩ => exact (Cert.ReferenceIdeal.Read.lhs_main_v48_1 _ _).trans hk)
  have er : dot_S50000x300_S300x300_S50000x300_1_0_0_1_n_n.rhsIdx i ((ValueIdx.contrEquiv1 dot_S50000x300_S300x300_S50000x300_1_0_0_1_n_n 300 rfl rfl).symm k) = ix2 k (col i) := funext fun a => Fin.ext (by
    match a with
    | ⟨0, _⟩ => exact (Cert.ReferenceIdeal.Read.rhs_main_v48_0 _ _).trans hk
    | ⟨1, _⟩ => exact Cert.ReferenceIdeal.Read.rhs_main_v48_1 _ _)
  rw [el, er]

end Cert.Gcn.Dots

end
-- ==== Proof.Reads.lean ====
/-
  Three operations read at an entry, for any shapes: a scatter-add is the operand's entry plus the sum of the updates
  that land on it; a gather is the operand at the index the start indices name; a scalar constant broadcast to an
  array is the constant everywhere.
-/
import Idealize.ShloMosaic.PureOps.Ideal
import Idealize.ShloMosaic.PureOps.Ideal.Laws
import Idealize.ShloMosaic.Lib.Pipeline.Value
import Idealize.ShloMosaic.Lib.ValueIdx

noncomputable section

open scoped BigOperators

namespace Cert.Gcn.Reads

open Idealize.ShloMosaic Idealize.ShloMosaic.ValueIdx

/-- The updates whose result index is the entry `i`. -/
def landing {s si su : Shape} (d : ScatterDims s si su) {w : Nat} (idx : IVec si w) (i : s.Idx) : Finset su.Idx :=
  Finset.univ.filter (fun j => d.resultIdx? j idx = some i)

theorem mem_landing {s si su : Shape} (d : ScatterDims s si su) {w : Nat} (idx : IVec si w) (i : s.Idx) (j : su.Idx) :
    j ∈ landing d idx i ↔ d.resultIdx? j idx = some i := by
  unfold landing; exact ⟨fun h => (Finset.mem_filter.mp h).2, fun h => Finset.mem_filter.mpr ⟨Finset.mem_univ _, h⟩⟩

/-- A float scatter-add at an entry, on the extended reals: the operand's entry plus the updates landing there. -/
theorem scatterAdd_apply {s si su : Shape} {φ : FTy} (d : ScatterDims s si su) {w : Nat} (x : FVec Ideal s φ) (idx : IVec si w)
    (upd : FVec Ideal su φ) (i : s.Idx) :
    Host.scatterAdd d x idx upd i = x i + ∑ j ∈ landing d idx i, upd j := rfl

/-- A gather at an entry: the operand at the index the start indices name. -/
theorem gather_apply {s si t : Shape} {α : Type} {w : Nat} (d : GatherDims s si t) (x : s.Idx → α) (idx : IVec si w) (j : t.Idx) :
    Host.gather d x idx j = x (d.operandIdx j idx) := rfl

/-- A scalar float constant broadcast to an array is the constant's value at every entry. -/
theorem splat_apply {S0 s : Shape} {φ : FTy} (dims : Fin S0.rank → Fin s.rank) (h : S0.BroadcastsInDim s dims)
    (b : BitVec φ.bits) (i : s.Idx) :
    broadcastInDim s dims h (constant (F := Ideal) S0 φ b) i = Ideal.ofBits φ b := rfl

end Cert.Gcn.Reads

end
-- ==== Proof.Layout.lean ====
/-
  Layout operations of this kernel read at an entry: a vector reshaped to a column or to a one-row array, a vector
  of edges as a column of indices, and the three two-step broadcasts that repeat a per-row, per-column or per-edge
  value across an array. Each takes the shape relation it needs as a hypothesis, so it reads either program's text.
-/
import proofs.«153010_j17703855194320_2_alg».proof.Proof.Spec
import Idealize.ShloMosaic.Lib.Pipeline.Value
import Idealize.ShloMosaic.Lib.ValueIdx

noncomputable section

namespace Cert.Gcn.Layout

open Idealize.ShloMosaic Idealize.ShloMosaic.ValueIdx Cert.KernelIdeal Cert.Gcn

variable {α : Type}

/-- A vector over the rows, reshaped to a column, at (r, 0): the vector at r. -/
theorem reshape_col (x : S50000.Idx → α) (h : S50000.ShapeCasts S50000x1) (r : Fin 50000) :
    shapeCast S50000x1 x h (ix2 r (0 : Fin 1)) = x (ix1 r) :=
  shapeCast_apply x h (ix2 r (0 : Fin 1)) (ix1 r)
    (by rewrite [Shape.rowMajor_val_one, Shape.rowMajor_val_two]; show r.val = r.val * 1 + 0; omega)

/-- A vector over the columns, reshaped to a one-row array, at (0, k): the vector at k. -/
theorem reshape_row (b : S300.Idx → α) (h : S300.ShapeCasts S1x300) (k : Fin 300) :
    shapeCast S1x300 b h (ix2 (0 : Fin 1) k) = b (ix1 k) :=
  shapeCast_apply b h (ix2 (0 : Fin 1) k) (ix1 k)
    (by rewrite [Shape.rowMajor_val_one, Shape.rowMajor_val_two]; show k.val = 0 * 300 + k.val; omega)

/-- A vector over the edges as a column, at (a, 0): the vector at a. -/
theorem col_apply (v : S800000.Idx → α) (h : S800000.BroadcastsInDim S800000x1 ![0]) (a : Fin 800000) :
    broadcastInDim S800000x1 ![0] h v (ix2 a (0 : Fin 1)) = v (ix1 a) :=
  broadcastInDim_apply _ h v (ix2 a (0 : Fin 1)) (ix1 a) (fun x => match x with
    | ⟨0, _⟩ => by show a.val = if (800000 : Nat) = 1 then 0 else a.val; rw [if_neg (by decide)])

/-- A per-edge value repeated across the feature columns, at an update's index: the value of the update's edge. -/
theorem edgeBcast_apply (x : S800000.Idx → α) (h1 : S800000.BroadcastsInDim S800000x1 ![0])
    (h2 : S800000x1.BroadcastsInDim S800000x300 ![0, 1]) (j : S800000x300.Idx) :
    broadcastInDim S800000x300 ![0, 1] h2 (broadcastInDim S800000x1 ![0] h1 x) j = x (ix1 (n := 800000) (j 0)) := by
  rw [broadcastInDim_apply _ h2 _ j (ix2 (n0 := 800000) (j 0) (0 : Fin 1)) (fun a => match a with
    | ⟨0, _⟩ => by show (j 0).val = if (800000 : Nat) = 1 then 0 else (j 0).val; rw [if_neg (by decide)]
    | ⟨1, _⟩ => by show 0 = if (1 : Nat) = 1 then 0 else (j 1).val; rw [if_pos rfl])]
  exact col_apply x h1 (j 0)

/-- A per-row value repeated across the feature columns, at an entry: the value of the entry's row. -/
theorem rowBcast_apply (x : S50000.Idx → α) (h1 : S50000.BroadcastsInDim S50000x1 ![0])
    (h2 : S50000x1.BroadcastsInDim S50000x300 ![0, 1]) (i : S50000x300.Idx) :
    broadcastInDim S50000x300 ![0, 1] h2 (broadcastInDim S50000x1 ![0] h1 x) i = x (ix1 (row i)) := by
  rw [broadcastInDim_apply _ h2 _ i (ix2 (row i) (0 : Fin 1)) (fun a => match a with
    | ⟨0, _⟩ => by show (i 0).val = if (50000 : Nat) = 1 then 0 else (i 0).val; rw [if_neg (by decide)]
    | ⟨1, _⟩ => by show 0 = if (1 : Nat) = 1 then 0 else (i 1).val; rw [if_pos rfl])]
  exact broadcastInDim_apply _ h1 x (ix2 (row i) (0 : Fin 1)) (ix1 (row i)) (fun a => match a with
    | ⟨0, _⟩ => by show (i 0).val = if (50000 : Nat) = 1 then 0 else (i 0).val; rw [if_neg (by decide)])

/-- A per-column value repeated down the rows, at an entry: the value of the entry's column. -/
theorem colBcast_apply (b : S300.Idx → α) (h1 : S300.BroadcastsInDim S1x300 ![1])
    (h2 : S1x300.BroadcastsInDim S50000x300 ![0, 1]) (i : S50000x300.Idx) :
    broadcastInDim S50000x300 ![0, 1] h2 (broadcastInDim S1x300 ![1] h1 b) i = b (ix1 (col i)) := by
  rw [broadcastInDim_apply _ h2 _ i (ix2 (0 : Fin 1) (col i)) (fun a => match a with
    | ⟨0, _⟩ => by show 0 = if (1 : Nat) = 1 then 0 else (i 0).val; rw [if_pos rfl]
    | ⟨1, _⟩ => by show (i 1).val = if (300 : Nat) = 1 then 0 else (i 1).val; rw [if_neg (by decide)])]
  exact broadcastInDim_apply _ h1 b (ix2 (0 : Fin 1) (col i)) (ix1 (col i)) (fun a => match a with
    | ⟨0, _⟩ => by show (i 1).val = if (300 : Nat) = 1 then 0 else (i 1).val; rw [if_neg (by decide)])

section
variable [Cert.KernelIdeal.Facts]

/-- The weights' column at (r, 0) is the weight of row r. -/
theorem dinvCol_apply (e : IVec S2x800000 32) (r : Fin 50000) : dinvCol e (ix2 r (0 : Fin 1)) = dinv e (ix1 r) :=
  reshape_col _ _ r

/-- A bias as a one-row array at (0, k) is the bias of column k. -/
theorem rowVec_apply (b : FVec Ideal S300 .f32) (k : Fin 300) : rowVec b (ix2 (0 : Fin 1) k) = b (ix1 k) :=
  reshape_row _ _ k

end

end Cert.Gcn.Layout

end
-- ==== Proof.EdgeIdx.lean ====
/-
  Which element a gather reads and where a scattered update lands, for the dimension records of the two-layer
  graph convolution, and the reads of the reshapes and broadcasts around them.

  An edge `e` carries a 32-bit start index. A gather reads it signed, sends a negative value to 0 and clamps it to
  the last row (`clampRow`); the row it reads is that clamped start, and the column is the result's own column.
  A scatter reads the start index signed and does not clamp it: an update lands only when the signed value is a
  row of the operand, and then it lands in that row, in the update's own column.
-/
import proofs.«153010_j17703855194320_2_alg».proof.Proof.Spec
import proofs.«153010_j17703855194320_2_alg».proof.ReferenceIdeal
import Idealize.ShloMosaic.Lib.Pipeline.Value
import Idealize.ShloMosaic.Lib.ValueIdx
import Idealize.ShloMosaic.Lib.ValueLayout

noncomputable section

namespace Cert.Gcn.EdgeIdx

open Idealize.ShloMosaic Idealize.ShloMosaic.ValueIdx
open scoped BigOperators

/-- A start index read signed, a negative value sent to 0, clamped to the last of the 50000 rows. -/
def clampRow (w : BitVec 32) : Fin 50000 := ⟨min w.toInt.toNat 49999, by omega⟩

/-! ## The gathers -/

section Kernel
open Cert.KernelIdeal
variable [Cert.KernelIdeal.Facts]
open Cert.KernelIdeal.Facts₀ Cert.KernelIdeal.Facts

/-- The row gather reads, for result element `(e, k)`, the operand at row `clampRow` of edge `e`'s start index and
    column `k`. -/
theorem gatherRows_idx (idx : IVec S800000x1 32) (j : S800000x300.Idx) :
    gather_S50000x300_S800000x1_S800000x300_1_0_n_n_0_1_1300.operandIdx j idx
      = ix2 (clampRow (idx (ix2 (j 0) (0 : Fin 1)))) (j 1) := by
  funext a
  refine Fin.ext ?_
  match a with
  | ⟨0, _⟩ =>
    show gather_S50000x300_S800000x1_S800000x300_1_0_n_n_0_1_1300.start j idx 0
        + gather_S50000x300_S800000x1_S800000x300_1_0_n_n_0_1_1300.batchCoord j 0
        + gather_S50000x300_S800000x1_S800000x300_1_0_n_n_0_1_1300.offCoord j 0
      = min (idx (ix2 (j 0) (0 : Fin 1))).toInt.toNat 49999
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S50000x300_S800000x1_S800000x300_1_0_n_n_0_1_1300.startIndexMap from
      List.mem_singleton.mpr rfl)]
    have hsi : gather_S50000x300_S800000x1_S800000x300_1_0_n_n_0_1_1300.siIdx j
        ⟨List.idxOf (0 : Fin 2) gather_S50000x300_S800000x1_S800000x300_1_0_n_n_0_1_1300.startIndexMap,
          List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    rfl
  | ⟨1, _⟩ =>
    show gather_S50000x300_S800000x1_S800000x300_1_0_n_n_0_1_1300.start j idx 1
        + gather_S50000x300_S800000x1_S800000x300_1_0_n_n_0_1_1300.batchCoord j 1
        + gather_S50000x300_S800000x1_S800000x300_1_0_n_n_0_1_1300.offCoord j 1
      = (j 1).val
    rw [GatherDims.batchCoord_eq_zero _ _ _ List.not_mem_nil]
    unfold GatherDims.start
    rw [dif_neg (show (1 : Fin 2) ∉ gather_S50000x300_S800000x1_S800000x300_1_0_n_n_0_1_1300.startIndexMap from by
      show (1 : Fin 2) ∉ [(0 : Fin 2)]; decide)]
    unfold GatherDims.offCoord
    rw [dif_pos (show (1 : Fin 2) ∈ gather_S50000x300_S800000x1_S800000x300_1_0_n_n_0_1_1300.sKept from by
      show (1 : Fin 2) ∈ (⟨2, ![50000, 300]⟩ : Shape).kept ([(0 : Fin 2)] ++ []); decide)]
    simp only [Nat.zero_add, Nat.add_zero]
    rfl

end Kernel

section Reference
open Cert.ReferenceIdeal
variable [Cert.ReferenceIdeal.Facts]
open Cert.ReferenceIdeal.Facts₀ Cert.ReferenceIdeal.Facts

/-- The vector gather reads, for result element `e`, the operand at `clampRow` of edge `e`'s start index. -/
theorem gatherVec_idx (idx : IVec S800000x1 32) (a : S800000.Idx) :
    gather_S50000_S800000x1_S800000_n_0_n_n_0_1_1.operandIdx a idx = ix1 (clampRow (idx (ix2 (a 0) (0 : Fin 1)))) := by
  funext c
  refine Fin.ext ?_
  match c with
  | ⟨0, _⟩ =>
    show gather_S50000_S800000x1_S800000_n_0_n_n_0_1_1.start a idx 0
        + gather_S50000_S800000x1_S800000_n_0_n_n_0_1_1.batchCoord a 0
        + gather_S50000_S800000x1_S800000_n_0_n_n_0_1_1.offCoord a 0
      = min (idx (ix2 (a 0) (0 : Fin 1))).toInt.toNat 49999
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ gather_S50000_S800000x1_S800000_n_0_n_n_0_1_1.startIndexMap from
      List.mem_singleton.mpr rfl)]
    have hsi : gather_S50000_S800000x1_S800000_n_0_n_n_0_1_1.siIdx a
        ⟨List.idxOf (0 : Fin 1) gather_S50000_S800000x1_S800000_n_0_n_n_0_1_1.startIndexMap,
          List.idxOf_lt_length_iff.2 (List.mem_singleton.mpr rfl)⟩ = ix2 (a 0) (0 : Fin 1) := by
      funext b; refine Fin.ext ?_
      match b with
      | ⟨0, _⟩ => rfl
      | ⟨1, _⟩ => rfl
    rw [hsi]
    rfl

end Reference

/-! ## The scatter -/

section Kernel
open Cert.KernelIdeal
variable [Cert.KernelIdeal.Facts]
open Cert.KernelIdeal.Facts₀ Cert.KernelIdeal.Facts

/-- An update `(e, k)` of the row scatter that lands at `(r, c)`: edge `e`'s start index, read signed, is the row
    `r`, and the update's column is `c`. -/
theorem scatterRows_lands (idx : IVec S800000x1 32) (j : S800000x300.Idx) (i : S50000x300.Idx)
    (h : scatter_S50000x300_S800000x1_S800000x300_1_0_0_1.resultIdx? j idx = some i) :
    (idx (ix2 (j 0) (0 : Fin 1))).toInt = ((i 0).val : Int) ∧ (j 1).val = (i 1).val := by
  have hs0 : scatter_S50000x300_S800000x1_S800000x300_1_0_0_1.start j idx 0 = (idx (ix2 (j 0) (0 : Fin 1))).toInt := by
    unfold ScatterDims.start
    rw [dif_pos (show (0 : Fin 2) ∈ scatter_S50000x300_S800000x1_S800000x300_1_0_0_1.scatterDimsToOperandDims from
      List.mem_singleton.mpr rfl)]
    have hsi : scatter_S50000x300_S800000x1_S800000x300_1_0_0_1.siIdx j
        ⟨List.idxOf (0 : Fin 2) scatter_S50000x300_S800000x1_S800000x300_1_0_0_1.scatterDimsToOperandDims,
          List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    rfl
  have hw0 : scatter_S50000x300_S800000x1_S800000x300_1_0_0_1.window j 0 = 0 := by
    unfold ScatterDims.window
    rw [dif_neg (show (0 : Fin 2) ∉ scatter_S50000x300_S800000x1_S800000x300_1_0_0_1.sKept from by
      show (0 : Fin 2) ∉ (⟨2, ![50000, 300]⟩ : Shape).kept [(0 : Fin 2)]; decide)]
  have hs1 : scatter_S50000x300_S800000x1_S800000x300_1_0_0_1.start j idx 1 = 0 := by
    unfold ScatterDims.start
    rw [dif_neg (show (1 : Fin 2) ∉ scatter_S50000x300_S800000x1_S800000x300_1_0_0_1.scatterDimsToOperandDims from by
      show (1 : Fin 2) ∉ [(0 : Fin 2)]; decide)]
  have hw1 : scatter_S50000x300_S800000x1_S800000x300_1_0_0_1.window j 1 = (j 1).val := by
    unfold ScatterDims.window
    rw [dif_pos (show (1 : Fin 2) ∈ scatter_S50000x300_S800000x1_S800000x300_1_0_0_1.sKept from by
      show (1 : Fin 2) ∈ (⟨2, ![50000, 300]⟩ : Shape).kept [(0 : Fin 2)]; decide)]
    rfl
  unfold ScatterDims.resultIdx? at h
  split at h
  · rename_i hall
    have hi := Option.some.inj h
    subst hi
    have h0 := hall 0
    have h1 := hall 1
    rw [hs0, hw0] at h0
    rw [hs1, hw1] at h1
    constructor
    · show _ = (((scatter_S50000x300_S800000x1_S800000x300_1_0_0_1.start j idx 0
        + (scatter_S50000x300_S800000x1_S800000x300_1_0_0_1.window j 0 : Nat)).toNat : Nat) : Int)
      rw [hs0, hw0]
      omega
    · show (j 1).val = (scatter_S50000x300_S800000x1_S800000x300_1_0_0_1.start j idx 1
        + (scatter_S50000x300_S800000x1_S800000x300_1_0_0_1.window j 1 : Nat)).toNat
      rw [hs1, hw1]
      omega
  · exact absurd h (by simp)

end Kernel

/-! ## The wrap of a negative row, and the row a landed update comes from -/

section Kernel
open Cert.KernelIdeal
variable [Cert.KernelIdeal.Facts]
open Cert.KernelIdeal.Facts₀ Cert.KernelIdeal.Facts

/-- The target rows wrapped the way the source rows are: a negative row counts from the end. -/
def dstWrapCol (e : IVec S2x800000 32) : IVec S800000x1 32 :=
  broadcastInDim S800000x1 ![0] bcast_S800000_S800000x1_0
    (select (cmpi .slt (Cert.Gcn.dstRaw e) (broadcastInDim S800000 ![] bcast_S_S800000 (constantI S_ 32 0#32)))
      (addi (Cert.Gcn.dstRaw e) (broadcastInDim S800000 ![] bcast_S_S800000 (constantI S_ 32 50000#32))) (Cert.Gcn.dstRaw e))

/-- A vector of 800000 entries broadcast to a column reads, at `(a, 0)`, the vector at `a`. -/
private theorem col_read {α : Type} (v : S800000.Idx → α) (a : Fin 800000) :
    broadcastInDim S800000x1 ![0] bcast_S800000_S800000x1_0 v (ix2 a (0 : Fin 1)) = v (ix1 a) :=
  broadcastInDim_apply _ bcast_S800000_S800000x1_0 v (ix2 a (0 : Fin 1)) (ix1 a) (fun c => match c with
    | ⟨0, _⟩ => by show a.val = if (800000 : Nat) = 1 then 0 else a.val; rw [if_neg (by decide)])

/-- Where a row is not negative the wrap leaves it as it is: the comparison with 0 is false there, and the select
    takes its second branch. -/
theorem wrap_of_nonneg (v : IVec S800000 32) (a : S800000.Idx) (h : 0 ≤ (v a).toInt) :
    select (cmpi .slt v (broadcastInDim S800000 ![] bcast_S_S800000 (constantI S_ 32 0#32)))
      (addi v (broadcastInDim S800000 ![] bcast_S_S800000 (constantI S_ 32 50000#32))) v a = v a := by
  rw [select_apply]
  have hc : cmpi .slt v (broadcastInDim S800000 ![] bcast_S_S800000 (constantI S_ 32 0#32)) a = 0#1 := by
    show BitVec.ofBool ((v a).slt 0#32) = 0#1
    have hlt : (v a).slt 0#32 = false := by
      rw [BitVec.slt_eq_decide, BitVec.toInt_zero]
      exact decide_eq_false (by omega)
    rw [hlt]
    rfl
  rw [hc, select_zero]

/-- An update `(e, k)` of the row scatter, at the unwrapped target rows, that lands at `(r, c)`: the wrapped and
    clamped target row of edge `e` is `r`. The raw target is a row of the operand, so neither the wrap nor the clamp
    changes it. -/
theorem dst_row_of_lands (e : IVec S2x800000 32) (j : S800000x300.Idx) (i : S50000x300.Idx)
    (h : scatter_S50000x300_S800000x1_S800000x300_1_0_0_1.resultIdx? j (Cert.Gcn.dstCol e) = some i) :
    clampRow (dstWrapCol e (ix2 (j 0) (0 : Fin 1))) = i 0 := by
  have hl := (scatterRows_lands (Cert.Gcn.dstCol e) j i h).1
  have hraw : Cert.Gcn.dstCol e (ix2 (j 0) (0 : Fin 1)) = Cert.Gcn.dstRaw e (ix1 (j 0)) := by
    unfold Cert.Gcn.dstCol
    exact col_read _ (j 0)
  rw [hraw] at hl
  have hwrap : dstWrapCol e (ix2 (j 0) (0 : Fin 1)) = Cert.Gcn.dstRaw e (ix1 (j 0)) := by
    unfold dstWrapCol
    refine (col_read _ (j 0)).trans ?_
    exact wrap_of_nonneg (Cert.Gcn.dstRaw e) (ix1 (j 0)) (by rw [hl]; exact Int.natCast_nonneg _)
  rw [hwrap]
  refine Fin.ext ?_
  show min (Cert.Gcn.dstRaw e (ix1 (j 0))).toInt.toNat 49999 = (i 0).val
  have hi : (i 0).val < 50000 := idx2_lt0 i
  rw [hl]
  omega

end Kernel

end Cert.Gcn.EdgeIdx

end
-- ==== Proof.Bridge.lean ====
/-
  The two programs compute one function of real arguments.

  Write `d` for the rows' weights, and for a projected features array `H` write `d • H` for `H` with row `r` scaled
  by `d r`. Three facts, each used once per layer:
   * a matrix product of rows scaled by `d` is `d •` the plain product (the scaling leaves the sum over the
     contraction: distributivity, which on the extended reals needs real entries);
   * the kernel's layer on `d • H` — sum the source rows of `d • H` over the edges that target a row, add the row's
     own, scale by `d`, add the bias — is the reference's layer on `H` — weight each edge's source row of `H` by the
     product of the two ends' weights, sum over the edges that target a row, add the row's own times `d²`, add the
     bias: an edge that the scatter keeps has a target inside the array, which the wrap and the clamp of the gather
     leave alone, so its target's weight is the row's own and comes out of the sum;
   * the reference's layer of a real `H` is real, so the second layer's operand is again real.
-/
import proofs.«153010_j17703855194320_2_alg».proof.Proof.Spec
import proofs.«153010_j17703855194320_2_alg».proof.Proof.RefSpec
import proofs.«153010_j17703855194320_2_alg».proof.Proof.Algebra
import proofs.«153010_j17703855194320_2_alg».proof.Proof.Dots
import proofs.«153010_j17703855194320_2_alg».proof.Proof.Reads
import proofs.«153010_j17703855194320_2_alg».proof.Proof.Layout
import proofs.«153010_j17703855194320_2_alg».proof.Proof.EdgeIdx

noncomputable section

open scoped BigOperators

namespace Cert.Gcn.Bridge

open Idealize.ShloMosaic Idealize.ShloMosaic.ValueIdx Cert.KernelIdeal Cert.Gcn Cert.Gcn.Reads

variable [Cert.KernelIdeal.Facts] [Cert.ReferenceIdeal.Facts]

/-! ## The two programs' texts name the same index columns, weights and dimension numbers -/

theorem dinv_ref (e : IVec S2x800000 32) : Ref.dinv e = dinv e := rfl
theorem dstCol_ref (e : IVec S2x800000 32) : Ref.colOf (Ref.dstRaw e) = dstCol e := rfl
theorem srcCol_ref (e : IVec S2x800000 32) : Ref.colOf (Ref.wrap (Ref.srcRaw e)) = srcCol e := rfl
theorem dstWrapCol_ref (e : IVec S2x800000 32) : Ref.colOf (Ref.wrap (Ref.dstRaw e)) = EdgeIdx.dstWrapCol e := rfl
theorem scatter_ref : Cert.ReferenceIdeal.scatter_S50000x300_S800000x1_S800000x300_1_0_0_1 = Cert.KernelIdeal.scatter_S50000x300_S800000x1_S800000x300_1_0_0_1 := rfl
theorem gather_ref : Cert.ReferenceIdeal.gather_S50000x300_S800000x1_S800000x300_1_0_n_n_0_1_1300 = Cert.KernelIdeal.gather_S50000x300_S800000x1_S800000x300_1_0_n_n_0_1_1300 := rfl

/-! ## A layer read at an entry -/

/-- The source row — wrapped, then clamped into the array — of the edge that carries update `j`. -/
def srcRow (e : IVec S2x800000 32) (j : S800000x300.Idx) : Fin 50000 :=
  EdgeIdx.clampRow (srcCol e (ix2 (j 0) (0 : Fin 1)))

/-- The target row — wrapped, then clamped into the array — of the edge that carries update `j`. -/
def dstRow (e : IVec S2x800000 32) (j : S800000x300.Idx) : Fin 50000 :=
  EdgeIdx.clampRow (EdgeIdx.dstWrapCol e (ix2 (j 0) (0 : Fin 1)))

/-- `d • H`: row `r` of `H` scaled by the row's weight. -/
def scaled (e : IVec S2x800000 32) (H : FVec Ideal S50000x300 .f32) : FVec Ideal S50000x300 .f32 :=
  fun i => dinv e (ix1 (row i)) * H i

/-- The kernel's layer at an entry: the row's weight times (the source rows' entries of the edges landing on the
    entry, plus the entry's own), plus the bias. -/
theorem kerLayer_apply (e : IVec S2x800000 32) (HS : FVec Ideal S50000x300 .f32) (b : FVec Ideal S300 .f32) (i : S50000x300.Idx) :
    combine HS (segsum e HS) (dinvCol e) (rowVec b) i
      = dinv e (ix1 (row i)) * (((0 : EReal) + ∑ j ∈ landing scatter_S50000x300_S800000x1_S800000x300_1_0_0_1 (dstCol e) i, HS (ix2 (srcRow e j) (j 1))) + HS i)
          + b (ix1 (col i)) := by
  have hseg : segsum e HS i = (0 : EReal) + ∑ j ∈ landing scatter_S50000x300_S800000x1_S800000x300_1_0_0_1 (dstCol e) i, HS (ix2 (srcRow e j) (j 1)) := by
    unfold segsum
    rw [scatterAdd_apply, splat_apply, Ideal.ofBits_zero_f32]
    refine congrArg ((0 : EReal) + ·) (Finset.sum_congr rfl fun j _ => ?_)
    rw [gather_apply, EdgeIdx.gatherRows_idx]
    rfl
  unfold combine
  rw [Layout.dinvCol_apply, Layout.rowVec_apply, hseg]

/-- The reference's layer at an entry: the edges landing on the entry, each source entry weighted by the product of
    its two ends' weights, plus the entry's own times the square of its row's weight, plus the bias. -/
theorem refLayer_apply (e : IVec S2x800000 32) (H : FVec Ideal S50000x300 .f32) (b : FVec Ideal S300 .f32) (i : S50000x300.Idx) :
    Ref.post H e b i
      = (((0 : EReal) + ∑ j ∈ landing scatter_S50000x300_S800000x1_S800000x300_1_0_0_1 (dstCol e) i,
            H (ix2 (srcRow e j) (j 1)) * (dinv e (ix1 (srcRow e j)) * dinv e (ix1 (dstRow e j))))
          + H i * (dinv e (ix1 (row i)) * dinv e (ix1 (row i)))) + b (ix1 (col i)) := by
  unfold Ref.post Ref.norm
  rw [dinv_ref, dstCol_ref, srcCol_ref, dstWrapCol_ref, scatter_ref, gather_ref]
  rw [addf_apply, addf_apply, Layout.colBcast_apply, mulf_apply, Layout.rowBcast_apply, mulf_apply, scatterAdd_apply,
    splat_apply, Ideal.ofBits_zero_f32]
  refine congrArg (fun z => (((0 : EReal) + z) + H i * (dinv e (ix1 (row i)) * dinv e (ix1 (row i)))) + b (ix1 (col i))) ?_
  refine Finset.sum_congr rfl fun j _ => ?_
  rw [mulf_apply, gather_apply, Layout.edgeBcast_apply, mulf_apply, gather_apply, gather_apply,
    EdgeIdx.gatherVec_idx, EdgeIdx.gatherVec_idx, EdgeIdx.gatherRows_idx]
  rfl

/-- THE LAYER: on real entries the kernel's layer of `d • H` is the reference's layer of `H`. -/
theorem layer_eq (e : IVec S2x800000 32) (H : FVec Ideal S50000x300 .f32) (b : FVec Ideal S300 .f32)
    (h : S50000x300.Idx → ℝ) (hH : ∀ i, H i = ((h i : ℝ) : EReal))
    (δ : Fin 50000 → ℝ) (hδ : ∀ r, dinv e (ix1 r) = ((δ r : ℝ) : EReal))
    (β : Fin 300 → ℝ) (hb : ∀ k, b (ix1 k) = ((β k : ℝ) : EReal)) (i : S50000x300.Idx) :
    combine (scaled e H) (segsum e (scaled e H)) (dinvCol e) (rowVec b) i = Ref.post H e b i := by
  rw [kerLayer_apply, refLayer_apply]
  unfold scaled
  simp only [hH, hδ, hb]
  exact Algebra.layer_entry _ (fun j => h (ix2 (srcRow e j) (j 1))) (fun j => δ (srcRow e j)) (fun j => δ (dstRow e j))
    (δ (row i)) (h i) (β (col i))
    (fun j hj => congrArg δ (EdgeIdx.dst_row_of_lands e j i ((mem_landing _ _ _ _).mp hj)))

/-- The reference's layer of a real `H` is real. -/
theorem layer_real (e : IVec S2x800000 32) (H : FVec Ideal S50000x300 .f32) (b : FVec Ideal S300 .f32)
    (h : S50000x300.Idx → ℝ) (hH : ∀ i, H i = ((h i : ℝ) : EReal))
    (δ : Fin 50000 → ℝ) (hδ : ∀ r, dinv e (ix1 r) = ((δ r : ℝ) : EReal))
    (β : Fin 300 → ℝ) (hb : ∀ k, b (ix1 k) = ((β k : ℝ) : EReal)) (i : S50000x300.Idx) :
    ∃ r : ℝ, Ref.post H e b i = ((r : ℝ) : EReal) := by
  rw [refLayer_apply]
  simp only [hH, hδ, hb]
  exact Algebra.layer_entry_real _ (fun j => h (ix2 (srcRow e j) (j 1))) (fun j => δ (srcRow e j)) (fun j => δ (dstRow e j))
    (δ (row i)) (h i) (β (col i))

/-! ## The two projections -/

/-- The first projection of real arguments is `d •` the reference's first product, and that product is real. -/
theorem hs1_eq (V : FVec Ideal S50000x128 .f32) (e : IVec S2x800000 32) (W1 : FVec Ideal S128x300 .f32)
    (v : S50000x128.Idx → ℝ) (hV : ∀ i, V i = ((v i : ℝ) : EReal)) (w1 : S128x300.Idx → ℝ) (hW1 : ∀ i, W1 i = ((w1 i : ℝ) : EReal))
    (δ : Fin 50000 → ℝ) (hδ : ∀ r, dinv e (ix1 r) = ((δ r : ℝ) : EReal)) :
    hs1 V e W1 = scaled e (Ref.dot1 V W1) := by
  funext i
  unfold hs1 proj1 scaled
  rw [Dots.dot1_apply]
  simp only [Layout.dinvCol_apply, hV, hW1, hδ]
  exact Algebra.scaled_dot_right _ _ _

theorem dot1_real (V : FVec Ideal S50000x128 .f32) (W1 : FVec Ideal S128x300 .f32)
    (v : S50000x128.Idx → ℝ) (hV : ∀ i, V i = ((v i : ℝ) : EReal)) (w1 : S128x300.Idx → ℝ) (hW1 : ∀ i, W1 i = ((w1 i : ℝ) : EReal))
    (i : S50000x300.Idx) : Ref.dot1 V W1 i = ((∑ g : Fin 128, v (ix2 (row i) g) * w1 (ix2 g (col i)) : ℝ) : EReal) := by
  rw [Dots.dot1_apply]
  simp only [hV, hW1]
  exact Algebra.dot_real _ _

theorem dot2_real (X : FVec Ideal S50000x300 .f32) (W2 : FVec Ideal S300x300 .f32)
    (x : S50000x300.Idx → ℝ) (hX : ∀ i, X i = ((x i : ℝ) : EReal)) (w2 : S300x300.Idx → ℝ) (hW2 : ∀ i, W2 i = ((w2 i : ℝ) : EReal))
    (i : S50000x300.Idx) : Ref.dot2 X W2 i = ((∑ g : Fin 300, x (ix2 (row i) g) * w2 (ix2 g (col i)) : ℝ) : EReal) := by
  rw [Dots.dot2_apply]
  simp only [hX, hW2]
  exact Algebra.dot_real _ _

/-- The second projection, fused with the first layer's combination, is `d •` the reference's second product of
    the first layer's result `X`, once the first layer's combination is known to be `X` and `X` to be real. -/
theorem proj2_eq (hs seg : FVec Ideal S50000x300 .f32) (e : IVec S2x800000 32) (b1 : FVec Ideal S300 .f32) (W2 : FVec Ideal S300x300 .f32)
    (X : FVec Ideal S50000x300 .f32) (hX1 : ∀ i, combine hs seg (dinvCol e) (rowVec b1) i = X i)
    (x : S50000x300.Idx → ℝ) (hX : ∀ i, X i = ((x i : ℝ) : EReal)) (w2 : S300x300.Idx → ℝ) (hW2 : ∀ i, W2 i = ((w2 i : ℝ) : EReal))
    (δ : Fin 50000 → ℝ) (hδ : ∀ r, dinv e (ix1 r) = ((δ r : ℝ) : EReal)) :
    proj2 hs seg (dinvCol e) (rowVec b1) W2 = scaled e (Ref.dot2 X W2) := by
  funext i
  have key : ∀ g : Fin 300, dinvCol e (ix2 (row i) (0 : Fin 1)) * (seg (ix2 (row i) g) + hs (ix2 (row i) g)) + rowVec b1 (ix2 (0 : Fin 1) g)
      = ((x (ix2 (row i) g) : ℝ) : EReal) := fun g => (hX1 (ix2 (row i) g)).trans (hX _)
  unfold proj2 scaled
  rw [Dots.dot2_apply]
  simp only [key]
  simp only [Layout.dinvCol_apply, hX, hW2, hδ]
  exact Algebra.scaled_dot_left _ _ _

/-! ## The whole -/

/-- On real arguments the kernel's result is the reference's. -/
theorem kernelOut_eq (V : FVec Ideal S50000x128 .f32) (e : IVec S2x800000 32) (W1 : FVec Ideal S128x300 .f32) (b1 : FVec Ideal S300 .f32)
    (W2 : FVec Ideal S300x300 .f32) (b2 : FVec Ideal S300 .f32)
    (hV : ∀ i, ∃ r : ℝ, V i = ((r : ℝ) : EReal)) (hW1 : ∀ i, ∃ r : ℝ, W1 i = ((r : ℝ) : EReal)) (hb1 : ∀ i, ∃ r : ℝ, b1 i = ((r : ℝ) : EReal))
    (hW2 : ∀ i, ∃ r : ℝ, W2 i = ((r : ℝ) : EReal)) (hb2 : ∀ i, ∃ r : ℝ, b2 i = ((r : ℝ) : EReal))
    (hd : ∃ δ : Fin 50000 → ℝ, ∀ r : Fin 50000, dinv e (ix1 r) = ((δ r : ℝ) : EReal)) :
    kernelOut V e W1 b1 W2 b2 = Ref.out V e W1 b1 W2 b2 := by
  choose v hv using hV
  choose w1 hw1 using hW1
  choose β1 hβ1 using hb1
  choose w2 hw2 using hW2
  choose β2 hβ2 using hb2
  obtain ⟨δ, hδ⟩ := hd
  -- the first layer
  have hH1 := dot1_real V W1 v hv w1 hw1
  have e1 : hs1 V e W1 = scaled e (Ref.dot1 V W1) := hs1_eq V e W1 v hv w1 hw1 δ hδ
  have hL1 : ∀ i, combine (hs1 V e W1) (segsum e (hs1 V e W1)) (dinvCol e) (rowVec b1) i = Ref.post (Ref.dot1 V W1) e b1 i := fun i => by
    rw [e1]; exact layer_eq e _ b1 _ hH1 δ hδ (fun k => β1 (ix1 k)) (fun k => hβ1 _) i
  have hX1 : ∀ i, ∃ r : ℝ, Ref.post (Ref.dot1 V W1) e b1 i = ((r : ℝ) : EReal) :=
    layer_real e _ b1 _ hH1 δ hδ (fun k => β1 (ix1 k)) (fun k => hβ1 _)
  choose x1 hx1 using hX1
  -- the second layer
  have hH2 := dot2_real (Ref.post (Ref.dot1 V W1) e b1) W2 x1 hx1 w2 hw2
  have e2 : hs2 V e W1 b1 W2 = scaled e (Ref.dot2 (Ref.post (Ref.dot1 V W1) e b1) W2) := by
    unfold hs2
    exact proj2_eq _ _ e b1 W2 _ hL1 x1 hx1 w2 hw2 δ hδ
  funext i
  unfold kernelOut Ref.out
  rw [e2]
  exact layer_eq e _ b2 _ hH2 δ hδ (fun k => β2 (ix1 k)) (fun k => hβ2 _) i

end Cert.Gcn.Bridge

end
-- ==== Proof.LibERealSum.lean ====
/-
  Sums of real numbers inside the extended reals.

  The coercion `ℝ → EReal` is additive, so it commutes with every finite sum: a finite sum of
  extended reals each of which is (the image of) a real number is the image of the real sum.  In
  particular such a sum is neither `⊥` nor `⊤`.
-/
import Mathlib.Data.EReal.Basic
import Mathlib.Algebra.BigOperators.Group.Finset.Basic

namespace Cert.Gcn.ERealSum

open scoped BigOperators

/-- The coercion of a finite sum of reals is the sum of the coercions, read from right to left:
    `∑ i ∈ s, (f i : EReal) = ((∑ i ∈ s, f i : ℝ) : EReal)`. -/
theorem sum_coe {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A finite sum whose terms are all real is real: if `g i = (f i : EReal)` on `s`, then
    `∑ i ∈ s, g i = ((∑ i ∈ s, f i : ℝ) : EReal)`. -/
theorem sum_eq_coe {ι : Type*} (s : Finset ι) (g : ι → EReal) (f : ι → ℝ)
    (h : ∀ i ∈ s, g i = ((f i : ℝ) : EReal)) :
    (∑ i ∈ s, g i) = ((∑ i ∈ s, f i : ℝ) : EReal) := by
  rw [Finset.sum_congr rfl h, sum_coe]

/-- A sum of `1`s over a finite set is its cardinality, as a real inside the extended reals. -/
theorem sum_one (ι : Type*) (s : Finset ι) :
    (∑ _i ∈ s, ((1 : ℝ) : EReal)) = (((s.card : ℕ) : ℝ) : EReal) := by
  rw [sum_coe s (fun _ => (1 : ℝ))]; simp

end Cert.Gcn.ERealSum
-- ==== Proof.Finite.lean ====
/-
  Finiteness.

  The precondition says of each float argument array that every entry's absolute value is below
  `+∞`.  An extended real `x` with `max x (-x) < ⊤` is neither `⊥` (then `-x = ⊤`) nor `⊤`, so it
  is a real number: under the precondition all five float arrays hold reals.

  The degree normalisation `d r = 1 / √(1 + #{edges into r})` is real whatever the edge array is:
  the count is a finite sum of ones, a natural number, so `1 + count ≥ 1 > 0`, and the inverse
  square root of a positive real is the real `(√·)⁻¹`.
-/
import proofs.«153010_j17703855194320_2_alg».proof.Proof.Spec
import proofs.«153010_j17703855194320_2_alg».proof.Proof.LibERealSum
import proofs.«153010_j17703855194320_2_alg».proof.Pre_finite_inputs
import proofs.«153010_j17703855194320_2_alg».proof.Proof.Gen.Pre_finite_inputs
import Idealize.ShloMosaic.Lib.ReduceAll
import Idealize.ShloMosaic.Lib.ValueIdx
import Idealize.ShloMosaic.PureOps.Ideal

noncomputable section

namespace Cert.Gcn.Finite

open Idealize.ShloMosaic Idealize.ShloMosaic.ValueIdx
open scoped BigOperators

/-! ### The words of `+∞`, `0` and `1` -/

/-- The word `0x7F800000` denotes `+∞`. -/
theorem ofBits_inf : Ideal.ofBits .f32 0x7F800000#32 = (⊤ : EReal) := by simp [Ideal.ofBits, Ideal.ieee]

/-- The word `0x00000000` denotes zero. -/
theorem ofBits_zero : Ideal.ofBits .f32 0x00000000#32 = (0 : EReal) := by simp [Ideal.ofBits, Ideal.ieee]

/-- The word `0x3F800000` denotes the real number one. -/
theorem ofBits_one : Ideal.ofBits .f32 0x3F800000#32 = ((1 : ℝ) : EReal) := by
  simp [Ideal.ofBits, Ideal.ieee, -EReal.coe_mul]; norm_num

/-! ### An entry whose absolute value is below `+∞` is real -/

/-- `max x (-x) < ⊤` excludes both infinities. -/
theorem real_of_abs_lt_top (x : EReal) (h : max x (-x) < ⊤) : ∃ r : ℝ, x = (r : EReal) := by
  induction x using EReal.rec with
  | bot => simp at h
  | coe r => exact ⟨r, rfl⟩
  | top => simp at h

/-- The comparison bit `|x| < +∞` being one says `x` is real. -/
theorem real_of_bit (x : EReal)
    (h : Ideal.cmp .olt (max x (-x)) (Ideal.ofBits .f32 0x7F800000#32) = 1#1) : ∃ r : ℝ, x = (r : EReal) := by
  rw [ofBits_inf] at h
  refine real_of_abs_lt_top x ?_
  by_contra hn
  simp [Ideal.cmp, hn] at h

/-- One array: if the array of bits `|x i| < +∞` is all ones at `i`, then `x i` is real. -/
theorem real_of_entry {s : Shape} (x : FVec Ideal s .f32) (hb : Cert.Pre_finite_inputs.S_.BroadcastsInDim s (![] : Fin 0 → Fin s.rank))
    (i : s.Idx)
    (h : cmpf .olt (Host.absf x) (broadcastInDim s ![] hb (constant Cert.Pre_finite_inputs.S_ .f32 0x7F800000#32)) i = 1#1) :
    ∃ r : ℝ, x i = (r : EReal) :=
  real_of_bit (x i) h

/-! ### The precondition, decoded -/

section Pre

open Cert.Pre_finite_inputs Cert.Pre_finite_inputs.Facts

/-- The rank-0 shape has one index. -/
instance subsingleton_S_ : Subsingleton S_.Idx := ⟨fun a b => funext fun d => d.elim0⟩

/-- Under the precondition every entry of each of the five float arrays is a real number. -/
theorem reals_of_pre (x0 : FVec Ideal S50000x128 .f32) (x1 : IVec S2x800000 32) (x2 : FVec Ideal S128x300 .f32)
    (x3 : FVec Ideal S300 .f32) (x4 : FVec Ideal S300x300 .f32) (x5 : FVec Ideal S300 .f32)
    (h : Cert.Pre_finite_inputs.fn (F := Ideal) x0 x1 x2 x3 x4 x5 = (fun _ => 1#1)) :
    (∀ i, ∃ r : ℝ, x0 i = (r : EReal)) ∧ (∀ i, ∃ r : ℝ, x2 i = (r : EReal)) ∧ (∀ i, ∃ r : ℝ, x3 i = (r : EReal))
      ∧ (∀ i, ∃ r : ℝ, x4 i = (r : EReal)) ∧ (∀ i, ∃ r : ℝ, x5 i = (r : EReal)) := by
  have h0 := congrFun h ix0
  dsimp only [fn, fn_part1] at h0
  obtain ⟨h0123, h5⟩ := IntOp.andi_eq_one.1 h0
  obtain ⟨h012, h4⟩ := IntOp.andi_eq_one.1 h0123
  obtain ⟨h01, h3⟩ := IntOp.andi_eq_one.1 h012
  obtain ⟨h00, h2⟩ := IntOp.andi_eq_one.1 h01
  refine ⟨fun i => ?_, fun i => ?_, fun i => ?_, fun i => ?_, fun i => ?_⟩
  · exact real_of_entry x0 _ i (Host.reduce_andi_all _ _ _ _ _ h00 i)
  · exact real_of_entry x2 _ i (Host.reduce_andi_all _ _ _ _ _ h2 i)
  · exact real_of_entry x3 _ i (Host.reduce_andi_all _ _ _ _ _ h3 i)
  · exact real_of_entry x4 _ i (Host.reduce_andi_all _ _ _ _ _ h4 i)
  · exact real_of_entry x5 _ i (Host.reduce_andi_all _ _ _ _ _ h5 i)

end Pre

/-! ### The degree normalisation is real -/

/-- The inverse square root of `a + (sum of ones) + b` with `a = 0`, `b = 1` is real: the argument is the
    real `card + 1`, which is positive. -/
theorem rsqrt_count_real {ι : Type*} (s : Finset ι) (a b : EReal) (u : ι → EReal) (ha : a = 0)
    (hu : ∀ j, u j = ((1 : ℝ) : EReal)) (hb : b = ((1 : ℝ) : EReal)) :
    ∃ t : ℝ, Ideal.rsqrt ((a + ∑ j ∈ s, u j) + b) = (t : EReal) := by
  have hsum : (∑ j ∈ s, u j) = (((s.card : ℕ) : ℝ) : EReal) := by
    rw [Finset.sum_congr rfl (fun j _ => hu j)]; exact ERealSum.sum_one ι s
  have hpos : (0 : ℝ) < (s.card : ℝ) + 1 := by positivity
  refine ⟨(Real.sqrt ((s.card : ℝ) + 1))⁻¹, ?_⟩
  rw [ha, hb, hsum, zero_add, ← EReal.coe_add, Ideal.rsqrt_coe, if_neg (not_lt.2 hpos.le), if_neg hpos.ne']

/-- The same for the arrays, at any shapes: the inverse square root of (a scatter-add of an all-ones array
    into an all-zeros array) plus an all-ones array is real at every index — the scatter-add's entry is
    zero plus a sum of ones over the updates that land on that index. -/
theorem rsqrt_deg_real {s si su : Shape} {w : Nat} (d : ScatterDims s si su)
    (hs : (⟨0, ![]⟩ : Shape).BroadcastsInDim s (![] : Fin 0 → Fin s.rank))
    (hu : (⟨0, ![]⟩ : Shape).BroadcastsInDim su (![] : Fin 0 → Fin su.rank)) (idx : IVec si w) (i : s.Idx) :
    ∃ t : ℝ, Host.rsqrt (addf
      (Host.scatterAdd d (broadcastInDim s ![] hs (constant (F := Ideal) ⟨0, ![]⟩ .f32 0x00000000#32)) idx
        (broadcastInDim su ![] hu (constant (F := Ideal) ⟨0, ![]⟩ .f32 0x3F800000#32)))
      (broadcastInDim s ![] hs (constant (F := Ideal) ⟨0, ![]⟩ .f32 0x3F800000#32))) i = (t : EReal) := by
  show ∃ t : ℝ, Ideal.rsqrt (Ideal.hostScatterAdd d _ idx _ i + Ideal.ofBits .f32 0x3F800000#32) = (t : EReal)
  unfold Ideal.hostScatterAdd
  exact rsqrt_count_real _ _ _ _ ofBits_zero (fun _ => ofBits_one) ofBits_one

section Dinv

open Cert.KernelIdeal
variable [Cert.KernelIdeal.Facts]

/-- `d` at any index is a real number, whatever the edge array holds. -/
theorem dinv_real_at (e : IVec S2x800000 32) (i : S50000.Idx) : ∃ t : ℝ, Cert.Gcn.dinv e i = (t : EReal) :=
  rsqrt_deg_real _ _ _ (Cert.Gcn.dstCol e) i

/-- `d` is a real number on every row. -/
theorem dinv_real (e : IVec S2x800000 32) :
    ∃ δ : Fin 50000 → ℝ, ∀ r : Fin 50000, Cert.Gcn.dinv e (ix1 r) = ((δ r : ℝ) : EReal) := by
  choose δ hδ using fun r : Fin 50000 => dinv_real_at e (ix1 r)
  exact ⟨δ, hδ⟩

end Dinv

end Cert.Gcn.Finite

end
-- ==== Proof.lean ====
/-
  A two-layer graph convolution, as three tiled kernels with the host program's gather and scatter-add between them, against the
  plain array program.

  For a graph on 50000 nodes with 800000 directed edges (src e → dst e), let `d r = (1 + #{e : dst e = r})^(-1/2)`.
  One layer of the reference, for features `X`, weights `W` and a bias `b`, is
      out r k = ∑_{e : dst e = r} (X·W) (src e) k · (d (src e) · d (dst e)) + (X·W) r k · (d r · d r) + b k.
  The kernel scales before it multiplies and once more after it sums: with `hs = (d-scaled X) · W`,
      out r k = d r · (∑_{e : dst e = r} hs (src e) k + hs r k) + b k,
  and its second layer takes the first layer's `out`, scaled by `d`, inside the same kernel that forms it.

  The two agree on the extended reals exactly when the scaling may be moved across the sums, which is distributivity
  and needs the entries to be real numbers: that is what the precondition (every float argument finite) gives, and
  `d r` is real because a count plus one is at least one. The index side: a negative source row counts from the end
  and the gather clamps it, identically in both programs; an edge whose target row lies outside the array is dropped
  by the scatter in both; and an edge that is kept has its target inside the array, where wrapping and clamping do
  nothing, so the weight the reference gathers for its target is the weight of the row it lands on.

  The kernel's run with its result named, the three kernels' blocks assembled into whole arrays, the host stretches
  between them, the reference's run, the index facts and the algebra are the modules imported below; this file puts
  the five claims together.
-/
import proofs.«153010_j17703855194320_2_alg».proof.Defs
import proofs.«153010_j17703855194320_2_alg».proof.Proof.Gen.Kernel
import proofs.«153010_j17703855194320_2_alg».proof.Proof.Gen.Kernel.Skeleton
import proofs.«153010_j17703855194320_2_alg».proof.Proof.Gen.Kernel.Launch
import proofs.«153010_j17703855194320_2_alg».proof.Proof.Gen.Kernel.Points
import proofs.«153010_j17703855194320_2_alg».proof.Proof.Gen.Kernel.Frame
import proofs.«153010_j17703855194320_2_alg».proof.Proof.Gen.KernelIdeal
import proofs.«153010_j17703855194320_2_alg».proof.Proof.Gen.KernelIdeal.Skeleton
import proofs.«153010_j17703855194320_2_alg».proof.Proof.Gen.KernelIdeal.Launch
import proofs.«153010_j17703855194320_2_alg».proof.Proof.Gen.KernelIdeal.Points
import proofs.«153010_j17703855194320_2_alg».proof.Proof.Gen.KernelIdeal.Frame
import proofs.«153010_j17703855194320_2_alg».proof.Proof.Gen.ReferenceIdeal
import proofs.«153010_j17703855194320_2_alg».proof.Proof.Gen.ReferenceIdeal.Run
import proofs.«153010_j17703855194320_2_alg».proof.Proof.Gen.ReferenceIdeal.Read
import proofs.«153010_j17703855194320_2_alg».proof.Proof.Gen.Pre_finite_inputs
import proofs.«153010_j17703855194320_2_alg».proof.Proof.KernelRun
import proofs.«153010_j17703855194320_2_alg».proof.Proof.RegionsAll
import proofs.«153010_j17703855194320_2_alg».proof.Proof.Bridge
import proofs.«153010_j17703855194320_2_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its arguments alone. -/
theorem frame_kernel : Cert.frame_Kernel := fun m ρ _ => Cert.Kernel.Gen.frame m ρ

/-- The idealized kernel runs and leaves its arguments alone. -/
theorem frame_kernelIdeal : Cert.frame_KernelIdeal := fun m ρ _ => Cert.KernelIdeal.Gen.frame m ρ

/-- The reference runs and leaves its arguments alone: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- On finite arguments the two idealized programs end with the same array: the kernel's run ends at the
    specification's function of the arguments, the reference's at its own, and on real arguments the two functions
    are one. -/
theorem algebraic : Cert.algebraic_KernelIdeal_ReferenceIdeal := by
  intro m ρ m' ρ' hpre hagree
  refine ⟨fun c => Cert.Gcn.kernelOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    Cert.Gcn.KernelRun.run m ρ Cert.Gcn.Regions.final0 Cert.Gcn.Regions.final1 Cert.Gcn.Regions.final2, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v91_eq, Cert.Gcn.Ref.val_eq_out, (hagree c).1, (hagree c).2.1, (hagree c).2.2.1,
    (hagree c).2.2.2.1, (hagree c).2.2.2.2.1, (hagree c).2.2.2.2.2]
  obtain ⟨h0, h2, h3, h4, h5⟩ := Cert.Gcn.Finite.reals_of_pre _ _ _ _ _ _ (hpre c)
  exact (Cert.Gcn.Bridge.kernelOut_eq _ _ _ _ _ _ h0 h2 h3 h4 h5 (Cert.Gcn.Finite.dinv_real _)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
